-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S160000x64 : S_.BroadcastsInDim S160000x64 (![] : Fin 0 → Fin S160000x64.rank)
  reducesTo_S160000x64_S_d0_1 : S160000x64.ReducesTo [0, 1] S_
  bcast_S_S67735x16 : S_.BroadcastsInDim S67735x16 (![] : Fin 0 → Fin S67735x16.rank)
  reducesTo_S67735x16_S_d0_1 : S67735x16.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x64 : S_.BroadcastsInDim S1024x64 (![] : Fin 0 → Fin S1024x64.rank)
  reducesTo_S1024x64_S_d0_1 : S1024x64.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg8 : FVec F S1024x16 .f32) (main_v33 : IVec S_ 1) : IVec S_ 1 :=
  let main_v34 : FVec F S1024x16 .f32 := Host.absf main_arg8
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  main_v38

def fn_part1 {F : FTy → Type} [FloatOps F] (main_arg5 : FVec F S1024x1024 .f32) (main_arg6 : FVec F S1024x256 .f32) (main_arg7 : FVec F S1024x64 .f32) (main_arg8 : FVec F S1024x16 .f32) (main_v13 : IVec S_ 1) (main_v16 : IVec S67735x16 1) : IVec S_ 1 :=
  let main_c_5 : IVec S_ 1 := constantI S_ 1 1#1
  let main_v17 : IVec S_ 1 := (fun x v => Host.reduce IntOp.andi x v reducesTo_S67735x16_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x256 .f32 := Host.absf main_arg6
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024x64 .f32 := Host.absf main_arg7
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg8 main_v33

def fn {F : FTy → Type} [FloatOps F] (main_arg0 : IVec S8x2048 32) (main_arg1 : FVec F S20000x1024 .f32) (main_arg2 : FVec F S20000x256 .f32) (main_arg3 : FVec F S160000x64 .f32) (main_arg4 : FVec F S67735x16 .f32) (main_arg5 : FVec F S1024x1024 .f32) (main_arg6 : FVec F S1024x256 .f32) (main_arg7 : FVec F S1024x64 .f32) (main_arg8 : FVec F S1024x16 .f32) : IVec S_ 1 :=
  let main_v0 : FVec F S20000x1024 .f32 := Host.absf main_arg1
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S160000x64 .f32 := Host.absf main_arg3
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S67735x16 .f32 := Host.absf main_arg4
  let main_cst_4 : FVec F S_ .f32 := constant S_ .f32 0x7F800000#32
  let main_v15 : FVec F S67735x16 .f32 := broadcastInDim S67735x16 ![] bcast_S_S67735x16 main_cst_4
  let main_v16 : IVec S67735x16 1 := cmpf .olt main_v14 main_v15
  fn_part1 (F := F) main_arg5 main_arg6 main_arg7 main_arg8 main_v13 main_v16
-- ==== Kernel.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S16384 : Shape := ⟨1, ![16384]⟩
abbrev S_ : Shape := ⟨0, ![]⟩
abbrev S16384x1 : Shape := ⟨2, ![16384, 1]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S16384x336 : Shape := ⟨2, ![16384, 336]⟩
abbrev S16384x384 : Shape := ⟨2, ![16384, 384]⟩
abbrev S1024x336 : Shape := ⟨2, ![1024, 336]⟩
abbrev S1024x384 : Shape := ⟨2, ![1024, 384]⟩
abbrev S8x2048x1024 : Shape := ⟨3, ![8, 2048, 1024]⟩

abbrev nBuf : Space → Nat
  | .hbm => 158
  | .vmem => 8
  | .smem => 0
  | _ => 0

abbrev hbmTy0_0 (i : Nat) : BufTy := match i % 128 with
  | 0 => ⟨S8x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i1⟩
  | 16 => ⟨S16384, .i1⟩
  | 17 => ⟨S_, .i32⟩
  | 18 => ⟨S16384, .i32⟩
  | 19 => ⟨S16384, .i32⟩
  | 20 => ⟨S_, .i32⟩
  | 21 => ⟨S_, .i32⟩
  | 22 => ⟨S_, .i32⟩
  | 23 => ⟨S16384, .i32⟩
  | 24 => ⟨S16384, .i32⟩
  | 25 => ⟨S_, .i32⟩
  | 26 => ⟨S16384, .i32⟩
  | 27 => ⟨S16384, .i32⟩
  | 28 => ⟨S16384x1, .i1⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S16384x1024, .f32⟩
  | 38 => ⟨S_, .f32⟩
  | 39 => ⟨S_, .f32⟩
  | 40 => ⟨S16384x1024, .i1⟩
  | 41 => ⟨S16384x1024, .f32⟩
  | 42 => ⟨S16384x1024, .f32⟩
  | 43 => ⟨S16384x1024, .bf16⟩
  | 44 => ⟨S_, .i32⟩
  | 45 => ⟨S16384, .i32⟩
  | 46 => ⟨S16384, .i1⟩
  | 47 => ⟨S_, .i32⟩
  | 48 => ⟨S16384, .i32⟩
  | 49 => ⟨S16384, .i1⟩
  | 50 => ⟨S16384, .i1⟩
  | 51 => ⟨S_, .i32⟩
  | 52 => ⟨S16384, .i32⟩
  | 53 => ⟨S16384, .i32⟩
  | 54 => ⟨S_, .i32⟩
  | 55 => ⟨S_, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i32⟩
  | 62 => ⟨S16384x1, .i1⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S16384x256, .f32⟩
  | 72 => ⟨S_, .f32⟩
  | 73 => ⟨S_, .f32⟩
  | 74 => ⟨S16384x256, .i1⟩
  | 75 => ⟨S16384x256, .f32⟩
  | 76 => ⟨S16384x256, .f32⟩
  | 77 => ⟨S16384x256, .bf16⟩
  | 78 => ⟨S_, .i32⟩
  | 79 => ⟨S16384, .i32⟩
  | 80 => ⟨S16384, .i1⟩
  | 81 => ⟨S_, .i32⟩
  | 82 => ⟨S16384, .i32⟩
  | 83 => ⟨S16384, .i1⟩
  | 84 => ⟨S16384, .i1⟩
  | 85 => ⟨S_, .i32⟩
  | 86 => ⟨S16384, .i32⟩
  | 87 => ⟨S16384, .i32⟩
  | 88 => ⟨S_, .i32⟩
  | 89 => ⟨S_, .i32⟩
  | 90 => ⟨S_, .i32⟩
  | 91 => ⟨S16384, .i32⟩
  | 92 => ⟨S16384, .i32⟩
  | 93 => ⟨S_, .i32⟩
  | 94 => ⟨S16384, .i32⟩
  | 95 => ⟨S16384, .i32⟩
  | 96 => ⟨S16384x1, .i1⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16384x64, .f32⟩
  | 106 => ⟨S_, .f32⟩
  | 107 => ⟨S_, .f32⟩
  | 108 => ⟨S16384x64, .i1⟩
  | 109 => ⟨S16384x64, .f32⟩
  | 110 => ⟨S16384x64, .f32⟩
  | 111 => ⟨S16384x64, .bf16⟩
  | 112 => ⟨S_, .i32⟩
  | 113 => ⟨S16384, .i32⟩
  | 114 => ⟨S16384, .i1⟩
  | 115 => ⟨S_, .i32⟩
  | 116 => ⟨S16384, .i32⟩
  | 117 => ⟨S16384, .i1⟩
  | 118 => ⟨S16384, .i1⟩
  | 119 => ⟨S_, .i32⟩
  | 120 => ⟨S16384, .i32⟩
  | 121 => ⟨S16384, .i32⟩
  | 122 => ⟨S_, .i32⟩
  | 123 => ⟨S_, .i32⟩
  | 124 => ⟨S_, .i32⟩
  | 125 => ⟨S16384, .i32⟩
  | 126 => ⟨S16384, .i32⟩
  | 127 => ⟨S_, .i32⟩
  | _ => ⟨S8x2048, .i32⟩

abbrev hbmTy0_1 (i : Nat) : BufTy := match i % 128 with
  | 0 => ⟨S16384, .i32⟩
  | 1 => ⟨S16384, .i32⟩
  | 2 => ⟨S16384x1, .i1⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384x16, .f32⟩
  | 12 => ⟨S_, .f32⟩
  | 13 => ⟨S_, .f32⟩
  | 14 => ⟨S16384x16, .i1⟩
  | 15 => ⟨S16384x16, .f32⟩
  | 16 => ⟨S16384x16, .f32⟩
  | 17 => ⟨S16384x16, .bf16⟩
  | 18 => ⟨S16384x336, .bf16⟩
  | 19 => ⟨S_, .i32⟩
  | 20 => ⟨S_, .bf16⟩
  | 21 => ⟨S16384x384, .bf16⟩
  | 22 => ⟨S1024x1024, .bf16⟩
  | 23 => ⟨S1024x336, .f32⟩
  | 24 => ⟨S_, .i32⟩
  | 25 => ⟨S_, .f32⟩
  | 26 => ⟨S1024x384, .f32⟩
  | 27 => ⟨S1024x384, .bf16⟩
  | 28 => ⟨S16384x1024, .f32⟩
  | 29 => ⟨S8x2048x1024, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x1024, .bf16⟩
  | .local _ .vmem, ⟨5, _⟩ => ⟨S1024x384, .bf16⟩
  | .local _ .vmem, ⟨6, _⟩ => ⟨S1024x1024, .f32⟩
  | .local _ .vmem, ⟨7, _⟩ => ⟨S1024x1024, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_v9 : Ref sig .tc := ⟨.hbm, 28, rfl⟩
abbrev main_c_4 : Ref sig .tc := ⟨.hbm, 29, rfl⟩
abbrev main_v10 : Ref sig .tc := ⟨.hbm, 30, rfl⟩
abbrev main_v11 : Ref sig .tc := ⟨.hbm, 31, rfl⟩
abbrev main_c_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_v19 : Ref sig .tc := ⟨.hbm, 45, rfl⟩
abbrev main_v20 : Ref sig .tc := ⟨.hbm, 46, rfl⟩
abbrev main_c_7 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_c_10 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v26 : Ref sig .tc := ⟨.hbm, 61, rfl⟩
abbrev main_v27 : Ref sig .tc := ⟨.hbm, 62, rfl⟩
abbrev main_c_11 : Ref sig .tc := ⟨.hbm, 63, rfl⟩
abbrev main_v28 : Ref sig .tc := ⟨.hbm, 64, rfl⟩
abbrev main_v29 : Ref sig .tc := ⟨.hbm, 65, rfl⟩
abbrev main_c_12 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_13 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v35 : Ref sig .tc := ⟨.hbm, 76, rfl⟩
abbrev main_v36 : Ref sig .tc := ⟨.hbm, 77, rfl⟩
abbrev main_c_14 : Ref sig .tc := ⟨.hbm, 78, rfl⟩
abbrev main_v37 : Ref sig .tc := ⟨.hbm, 79, rfl⟩
abbrev main_v38 : Ref sig .tc := ⟨.hbm, 80, rfl⟩
abbrev main_c_15 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_16 : Ref sig .tc := ⟨.hbm, 85, rfl⟩
abbrev main_v42 : Ref sig .tc := ⟨.hbm, 86, rfl⟩
abbrev main_v43 : Ref sig .tc := ⟨.hbm, 87, rfl⟩
abbrev main_c_17 : Ref sig .tc := ⟨.hbm, 88, rfl⟩
abbrev main_c_18 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v44 : Ref sig .tc := ⟨.hbm, 95, rfl⟩
abbrev main_v45 : Ref sig .tc := ⟨.hbm, 96, rfl⟩
abbrev main_c_19 : Ref sig .tc := ⟨.hbm, 97, rfl⟩
abbrev main_v46 : Ref sig .tc := ⟨.hbm, 98, rfl⟩
abbrev main_v47 : Ref sig .tc := ⟨.hbm, 99, rfl⟩
abbrev main_c_20 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_21 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v53 : Ref sig .tc := ⟨.hbm, 110, rfl⟩
abbrev main_v54 : Ref sig .tc := ⟨.hbm, 111, rfl⟩
abbrev main_c_22 : Ref sig .tc := ⟨.hbm, 112, rfl⟩
abbrev main_v55 : Ref sig .tc := ⟨.hbm, 113, rfl⟩
abbrev main_v56 : Ref sig .tc := ⟨.hbm, 114, rfl⟩
abbrev main_c_23 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_24 : Ref sig .tc := ⟨.hbm, 119, rfl⟩
abbrev main_v60 : Ref sig .tc := ⟨.hbm, 120, rfl⟩
abbrev main_v61 : Ref sig .tc := ⟨.hbm, 121, rfl⟩
abbrev main_c_25 : Ref sig .tc := ⟨.hbm, 122, rfl⟩
abbrev main_c_26 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_v62 : Ref sig .tc := ⟨.hbm, 129, rfl⟩
abbrev main_v63 : Ref sig .tc := ⟨.hbm, 130, rfl⟩
abbrev main_c_27 : Ref sig .tc := ⟨.hbm, 131, rfl⟩
abbrev main_v64 : Ref sig .tc := ⟨.hbm, 132, rfl⟩
abbrev main_v65 : Ref sig .tc := ⟨.hbm, 133, rfl⟩
abbrev main_c_28 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_cst_29 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_c_30 : Ref sig .tc := ⟨.hbm, 147, rfl⟩
abbrev main_call8_v0 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_c_31 : Ref sig .tc := ⟨.hbm, 152, rfl⟩
abbrev main_call9_v0 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  bitsLt_bf16_f32 : FTy.bits .bf16 < FTy.bits .f32
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  bcast_S16384x1_S16384x64_0_1 : S16384x1.BroadcastsInDim S16384x64 (![0, 1] : Fin 2 → Fin S16384x64.rank)
  bcast_S_S16384x64 : S_.BroadcastsInDim S16384x64 (![] : Fin 0 → Fin S16384x64.rank)
  bcast_S16384x1_S16384x16_0_1 : S16384x1.BroadcastsInDim S16384x16 (![0, 1] : Fin 2 → Fin S16384x16.rank)
  bcast_S_S16384x16 : S_.BroadcastsInDim S16384x16 (![] : Fin 0 → Fin S16384x16.rank)
  concatenates_S16384x256_S16384x64_S16384x16_S16384x336_d1 : Shape.Concatenates [S16384x256, S16384x64, S16384x16] S16384x336 1
  pads_S16384x336_S16384x384_000_0480 : S16384x336.Pads (![0, 0] : Fin 2 → Nat) ![0, 48] ![0, 0] S16384x384
  h_S_ : 0 < S_.numel
  concatenates_S1024x256_S1024x64_S1024x16_S1024x336_d1 : Shape.Concatenates [S1024x256, S1024x64, S1024x16] S1024x336 1
  pads_S1024x336_S1024x384_000_0480 : S1024x336.Pads (![0, 0] : Fin 2 → Nat) ![0, 48] ![0, 0] S1024x384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  shapeCasts_S16384x1024_S8x2048x1024 : S16384x1024.ShapeCasts S8x2048x1024
  gather_S20000x1024_S16384x1_S16384x1024_1_0_n_n_0_1_11024_wf : GatherDims.WF S20000x1024 S16384x1 S16384x1024 [1] [0] [] [0] [] 1 ![1, 1024]
  gather_S20000x256_S16384x1_S16384x256_1_0_n_n_0_1_1256_wf : GatherDims.WF S20000x256 S16384x1 S16384x256 [1] [0] [] [0] [] 1 ![1, 256]
  gather_S160000x64_S16384x1_S16384x64_1_0_n_n_0_1_164_wf : GatherDims.WF S160000x64 S16384x1 S16384x64 [1] [0] [] [0] [] 1 ![1, 64]
  gather_S67735x16_S16384x1_S16384x16_1_0_n_n_0_1_116_wf : GatherDims.WF S67735x16 S16384x1 S16384x16 [1] [0] [] [0] [] 1 ![1, 16]
  dot_S1024x1024_S1024x1024_S1024x1024_1_1_0_0_n_n_wf : DotDims.WF S1024x1024 S1024x1024 S1024x1024 [1] [1] [0] [0] [] []
  dot_S1024x384_S1024x384_S1024x1024_1_1_0_0_n_n_wf : DotDims.WF S1024x384 S1024x384 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S16384x384.size a
  hwx0_1 : ∀ i : grid0.Coords, EltTy.bits .bf16 = 32 ∨ (Rect.block (s := S16384x384) S1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x384.size a ≤ S1024x384.size a
  hwx0_3 : ∀ i : grid0.Coords, EltTy.bits .bf16 = 32 ∨ (Rect.block (s := S1024x384) S1024x384.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def gather_S20000x1024_S16384x1_S16384x1024_1_0_n_n_0_1_11024 : GatherDims S20000x1024 S16384x1 S16384x1024 where
  offsetDims := [1]
  collapsedSliceDims := [0]
  operandBatchingDims := []
  startIndicesBatchingDims := []
  startIndexMap := [0]
  indexVectorDim := 1
  sliceSizes := ![1, 1024]
  wf := gather_S20000x1024_S16384x1_S16384x1024_1_0_n_n_0_1_11024_wf
def gather_S20000x256_S16384x1_S16384x256_1_0_n_n_0_1_1256 : GatherDims S20000x256 S16384x1 S16384x256 where
  offsetDims := [1]
  collapsedSliceDims := [0]
  operandBatchingDims := []
  startIndicesBatchingDims := []
  startIndexMap := [0]
  indexVectorDim := 1
  sliceSizes := ![1, 256]
  wf := gather_S20000x256_S16384x1_S16384x256_1_0_n_n_0_1_1256_wf
def gather_S160000x64_S16384x1_S16384x64_1_0_n_n_0_1_164 : GatherDims S160000x64 S16384x1 S16384x64 where
  offsetDims := [1]
  collapsedSliceDims := [0]
  operandBatchingDims := []
  startIndicesBatchingDims := []
  startIndexMap := [0]
  indexVectorDim := 1
  sliceSizes := ![1, 64]
  wf := gather_S160000x64_S16384x1_S16384x64_1_0_n_n_0_1_164_wf
def gather_S67735x16_S16384x1_S16384x16_1_0_n_n_0_1_116 : GatherDims S67735x16 S16384x1 S16384x16 where
  offsetDims := [1]
  collapsedSliceDims := [0]
  operandBatchingDims := []
  startIndicesBatchingDims := []
  startIndexMap := [0]
  indexVectorDim := 1
  sliceSizes := ![1, 16]
  wf := gather_S67735x16_S16384x1_S16384x16_1_0_n_n_0_1_116_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x384_S1024x384_S1024x1024_1_1_0_0_n_n : DotDims S1024x384 S1024x384 S1024x1024 where
  lhsContracting := [1]
  rhsContracting := [1]
  lhsNonContracting := [0]
  rhsNonContracting := [0]
  lhsBatch := []
  rhsBatch := []
  wf := dot_S1024x384_S1024x384_S1024x1024_1_1_0_0_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S1024x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v75) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v78) S1024x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v79) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S_ : Shape := ⟨0, ![]⟩
abbrev S8x2048x1024 : Shape := ⟨3, ![8, 2048, 1024]⟩
abbrev S8x2048x1 : Shape := ⟨3, ![8, 2048, 1]⟩
abbrev S8x2048x256 : Shape := ⟨3, ![8, 2048, 256]⟩
abbrev S8x2048x64 : Shape := ⟨3, ![8, 2048, 64]⟩
abbrev S8x2048x16 : Shape := ⟨3, ![8, 2048, 16]⟩

abbrev nBuf : Space → Nat
  | .hbm => 154
  | .vmem => 0
  | .smem => 0
  | _ => 0

abbrev hbmTy0_0 (i : Nat) : BufTy := match i % 128 with
  | 0 => ⟨S8x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S_, .f32⟩
  | 10 => ⟨S8x2048x1024, .f32⟩
  | 11 => ⟨S_, .i32⟩
  | 12 => ⟨S8x2048, .i32⟩
  | 13 => ⟨S8x2048, .i1⟩
  | 14 => ⟨S_, .i32⟩
  | 15 => ⟨S8x2048, .i32⟩
  | 16 => ⟨S8x2048, .i1⟩
  | 17 => ⟨S8x2048, .i1⟩
  | 18 => ⟨S_, .i32⟩
  | 19 => ⟨S8x2048, .i32⟩
  | 20 => ⟨S8x2048, .i32⟩
  | 21 => ⟨S_, .i32⟩
  | 22 => ⟨S_, .i32⟩
  | 23 => ⟨S_, .i32⟩
  | 24 => ⟨S8x2048, .i32⟩
  | 25 => ⟨S8x2048, .i32⟩
  | 26 => ⟨S_, .i32⟩
  | 27 => ⟨S8x2048, .i32⟩
  | 28 => ⟨S8x2048, .i32⟩
  | 29 => ⟨S_, .i32⟩
  | 30 => ⟨S8x2048, .i32⟩
  | 31 => ⟨S8x2048, .i1⟩
  | 32 => ⟨S_, .i32⟩
  | 33 => ⟨S8x2048, .i32⟩
  | 34 => ⟨S8x2048, .i32⟩
  | 35 => ⟨S8x2048, .i32⟩
  | 36 => ⟨S8x2048x1, .i32⟩
  | 37 => ⟨S8x2048x1024, .f32⟩
  | 38 => ⟨S8x2048x1024, .f32⟩
  | 39 => ⟨S8x2048x1, .i1⟩
  | 40 => ⟨S_, .f32⟩
  | 41 => ⟨S_, .f32⟩
  | 42 => ⟨S8x2048x1024, .i1⟩
  | 43 => ⟨S8x2048x1024, .f32⟩
  | 44 => ⟨S8x2048x1024, .f32⟩
  | 45 => ⟨S8x2048x1024, .f32⟩
  | 46 => ⟨S_, .i32⟩
  | 47 => ⟨S8x2048, .i32⟩
  | 48 => ⟨S8x2048, .i1⟩
  | 49 => ⟨S_, .i32⟩
  | 50 => ⟨S8x2048, .i32⟩
  | 51 => ⟨S8x2048, .i1⟩
  | 52 => ⟨S8x2048, .i1⟩
  | 53 => ⟨S_, .i32⟩
  | 54 => ⟨S8x2048, .i32⟩
  | 55 => ⟨S8x2048, .i32⟩
  | 56 => ⟨S_, .i32⟩
  | 57 => ⟨S_, .i32⟩
  | 58 => ⟨S_, .i32⟩
  | 59 => ⟨S8x2048, .i32⟩
  | 60 => ⟨S8x2048, .i32⟩
  | 61 => ⟨S_, .i32⟩
  | 62 => ⟨S8x2048, .i32⟩
  | 63 => ⟨S8x2048, .i32⟩
  | 64 => ⟨S_, .i32⟩
  | 65 => ⟨S8x2048, .i32⟩
  | 66 => ⟨S8x2048, .i1⟩
  | 67 => ⟨S_, .i32⟩
  | 68 => ⟨S8x2048, .i32⟩
  | 69 => ⟨S8x2048, .i32⟩
  | 70 => ⟨S8x2048, .i32⟩
  | 71 => ⟨S8x2048x1, .i32⟩
  | 72 => ⟨S8x2048x256, .f32⟩
  | 73 => ⟨S8x2048x1024, .f32⟩
  | 74 => ⟨S8x2048x1, .i1⟩
  | 75 => ⟨S_, .f32⟩
  | 76 => ⟨S_, .f32⟩
  | 77 => ⟨S8x2048x1024, .i1⟩
  | 78 => ⟨S8x2048x1024, .f32⟩
  | 79 => ⟨S8x2048x1024, .f32⟩
  | 80 => ⟨S8x2048x1024, .f32⟩
  | 81 => ⟨S_, .i32⟩
  | 82 => ⟨S8x2048, .i32⟩
  | 83 => ⟨S8x2048, .i1⟩
  | 84 => ⟨S_, .i32⟩
  | 85 => ⟨S8x2048, .i32⟩
  | 86 => ⟨S8x2048, .i1⟩
  | 87 => ⟨S8x2048, .i1⟩
  | 88 => ⟨S_, .i32⟩
  | 89 => ⟨S8x2048, .i32⟩
  | 90 => ⟨S8x2048, .i32⟩
  | 91 => ⟨S_, .i32⟩
  | 92 => ⟨S_, .i32⟩
  | 93 => ⟨S_, .i32⟩
  | 94 => ⟨S8x2048, .i32⟩
  | 95 => ⟨S8x2048, .i32⟩
  | 96 => ⟨S_, .i32⟩
  | 97 => ⟨S8x2048, .i32⟩
  | 98 => ⟨S8x2048, .i32⟩
  | 99 => ⟨S_, .i32⟩
  | 100 => ⟨S8x2048, .i32⟩
  | 101 => ⟨S8x2048, .i1⟩
  | 102 => ⟨S_, .i32⟩
  | 103 => ⟨S8x2048, .i32⟩
  | 104 => ⟨S8x2048, .i32⟩
  | 105 => ⟨S8x2048, .i32⟩
  | 106 => ⟨S8x2048x1, .i32⟩
  | 107 => ⟨S8x2048x64, .f32⟩
  | 108 => ⟨S8x2048x1024, .f32⟩
  | 109 => ⟨S8x2048x1, .i1⟩
  | 110 => ⟨S_, .f32⟩
  | 111 => ⟨S_, .f32⟩
  | 112 => ⟨S8x2048x1024, .i1⟩
  | 113 => ⟨S8x2048x1024, .f32⟩
  | 114 => ⟨S8x2048x1024, .f32⟩
  | 115 => ⟨S8x2048x1024, .f32⟩
  | 116 => ⟨S_, .i32⟩
  | 117 => ⟨S8x2048, .i32⟩
  | 118 => ⟨S8x2048, .i1⟩
  | 119 => ⟨S_, .i32⟩
  | 120 => ⟨S8x2048, .i32⟩
  | 121 => ⟨S8x2048, .i1⟩
  | 122 => ⟨S8x2048, .i1⟩
  | 123 => ⟨S_, .i32⟩
  | 124 => ⟨S8x2048, .i32⟩
  | 125 => ⟨S8x2048, .i32⟩
  | 126 => ⟨S_, .i32⟩
  | 127 => ⟨S_, .i32⟩
  | _ => ⟨S8x2048, .i32⟩

abbrev hbmTy0_1 (i : Nat) : BufTy := match i % 128 with
  | 0 => ⟨S_, .i32⟩
  | 1 => ⟨S8x2048, .i32⟩
  | 2 => ⟨S8x2048, .i32⟩
  | 3 => ⟨S_, .i32⟩
  | 4 => ⟨S8x2048, .i32⟩
  | 5 => ⟨S8x2048, .i32⟩
  | 6 => ⟨S_, .i32⟩
  | 7 => ⟨S8x2048, .i32⟩
  | 8 => ⟨S8x2048, .i1⟩
  | 9 => ⟨S_, .i32⟩
  | 10 => ⟨S8x2048, .i32⟩
  | 11 => ⟨S8x2048, .i32⟩
  | 12 => ⟨S8x2048, .i32⟩
  | 13 => ⟨S8x2048x1, .i32⟩
  | 14 => ⟨S8x2048x16, .f32⟩
  | 15 => ⟨S8x2048x1024, .f32⟩
  | 16 => ⟨S8x2048x1, .i1⟩
  | 17 => ⟨S_, .f32⟩
  | 18 => ⟨S_, .f32⟩
  | 19 => ⟨S8x2048x1024, .i1⟩
  | 20 => ⟨S8x2048x1024, .f32⟩
  | 21 => ⟨S8x2048x1024, .f32⟩
  | 22 => ⟨S8x2048x1024, .f32⟩
  | 23 => ⟨S_, .f32⟩
  | 24 => ⟨S8x2048x1024, .f32⟩
  | 25 => ⟨S8x2048x1024, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v8 : Ref sig .tc := ⟨.hbm, 28, rfl⟩
abbrev main_c_4 : Ref sig .tc := ⟨.hbm, 29, rfl⟩
abbrev main_v9 : Ref sig .tc := ⟨.hbm, 30, rfl⟩
abbrev main_v10 : Ref sig .tc := ⟨.hbm, 31, rfl⟩
abbrev main_c_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v18 : Ref sig .tc := ⟨.hbm, 44, rfl⟩
abbrev main_v19 : Ref sig .tc := ⟨.hbm, 45, rfl⟩
abbrev main_c_7 : Ref sig .tc := ⟨.hbm, 46, rfl⟩
abbrev main_v20 : Ref sig .tc := ⟨.hbm, 47, rfl⟩
abbrev main_v21 : Ref sig .tc := ⟨.hbm, 48, rfl⟩
abbrev main_c_8 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_9 : Ref sig .tc := ⟨.hbm, 53, rfl⟩
abbrev main_v25 : Ref sig .tc := ⟨.hbm, 54, rfl⟩
abbrev main_v26 : Ref sig .tc := ⟨.hbm, 55, rfl⟩
abbrev main_c_10 : Ref sig .tc := ⟨.hbm, 56, rfl⟩
abbrev main_c_11 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v27 : Ref sig .tc := ⟨.hbm, 63, rfl⟩
abbrev main_c_12 : Ref sig .tc := ⟨.hbm, 64, rfl⟩
abbrev main_v28 : Ref sig .tc := ⟨.hbm, 65, rfl⟩
abbrev main_v29 : Ref sig .tc := ⟨.hbm, 66, rfl⟩
abbrev main_c_13 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_14 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v37 : Ref sig .tc := ⟨.hbm, 79, rfl⟩
abbrev main_v38 : Ref sig .tc := ⟨.hbm, 80, rfl⟩
abbrev main_c_15 : Ref sig .tc := ⟨.hbm, 81, rfl⟩
abbrev main_v39 : Ref sig .tc := ⟨.hbm, 82, rfl⟩
abbrev main_v40 : Ref sig .tc := ⟨.hbm, 83, rfl⟩
abbrev main_c_16 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_17 : Ref sig .tc := ⟨.hbm, 88, rfl⟩
abbrev main_v44 : Ref sig .tc := ⟨.hbm, 89, rfl⟩
abbrev main_v45 : Ref sig .tc := ⟨.hbm, 90, rfl⟩
abbrev main_c_18 : Ref sig .tc := ⟨.hbm, 91, rfl⟩
abbrev main_c_19 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_v46 : Ref sig .tc := ⟨.hbm, 98, rfl⟩
abbrev main_c_20 : Ref sig .tc := ⟨.hbm, 99, rfl⟩
abbrev main_v47 : Ref sig .tc := ⟨.hbm, 100, rfl⟩
abbrev main_v48 : Ref sig .tc := ⟨.hbm, 101, rfl⟩
abbrev main_c_21 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_22 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v56 : Ref sig .tc := ⟨.hbm, 114, rfl⟩
abbrev main_v57 : Ref sig .tc := ⟨.hbm, 115, rfl⟩
abbrev main_c_23 : Ref sig .tc := ⟨.hbm, 116, rfl⟩
abbrev main_v58 : Ref sig .tc := ⟨.hbm, 117, rfl⟩
abbrev main_v59 : Ref sig .tc := ⟨.hbm, 118, rfl⟩
abbrev main_c_24 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_c_25 : Ref sig .tc := ⟨.hbm, 123, rfl⟩
abbrev main_v63 : Ref sig .tc := ⟨.hbm, 124, rfl⟩
abbrev main_v64 : Ref sig .tc := ⟨.hbm, 125, rfl⟩
abbrev main_c_26 : Ref sig .tc := ⟨.hbm, 126, rfl⟩
abbrev main_c_27 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_v65 : Ref sig .tc := ⟨.hbm, 133, rfl⟩
abbrev main_c_28 : Ref sig .tc := ⟨.hbm, 134, rfl⟩
abbrev main_v66 : Ref sig .tc := ⟨.hbm, 135, rfl⟩
abbrev main_v67 : Ref sig .tc := ⟨.hbm, 136, rfl⟩
abbrev main_c_29 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_cst_30 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_v75 : Ref sig .tc := ⟨.hbm, 149, rfl⟩
abbrev main_v76 : Ref sig .tc := ⟨.hbm, 150, rfl⟩
abbrev main_cst_31 : Ref sig .tc := ⟨.hbm, 151, rfl⟩
abbrev main_v77 : Ref sig .tc := ⟨.hbm, 152, rfl⟩
abbrev main_v78 : Ref sig .tc := ⟨.hbm, 153, rfl⟩

abbrev nD : Nat := 1
abbrev τ : Topo := Topo.v7x

variable {F : FTy → Type} [FloatOps F]

class Facts₀ : Prop where
  bcast_S_S8x2048x1024 : S_.BroadcastsInDim S8x2048x1024 (![] : Fin 0 → Fin S8x2048x1024.rank)
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x1024_0_1_2 : S8x2048x1.BroadcastsInDim S8x2048x1024 (![0, 1, 2] : Fin 3 → Fin S8x2048x1024.rank)
  gather_S20000x1024_S8x2048x1_S8x2048x1024_2_0_n_n_0_2_11024_wf : GatherDims.WF S20000x1024 S8x2048x1 S8x2048x1024 [2] [0] [] [0] [] 2 ![1, 1024]
  dot_S8x2048x1024_S1024x1024_S8x2048x1024_2_1_01_0_n_n_wf : DotDims.WF S8x2048x1024 S1024x1024 S8x2048x1024 [2] [1] [0, 1] [0] [] []
  gather_S20000x256_S8x2048x1_S8x2048x256_2_0_n_n_0_2_1256_wf : GatherDims.WF S20000x256 S8x2048x1 S8x2048x256 [2] [0] [] [0] [] 2 ![1, 256]
  dot_S8x2048x256_S1024x256_S8x2048x1024_2_1_01_0_n_n_wf : DotDims.WF S8x2048x256 S1024x256 S8x2048x1024 [2] [1] [0, 1] [0] [] []
  gather_S160000x64_S8x2048x1_S8x2048x64_2_0_n_n_0_2_164_wf : GatherDims.WF S160000x64 S8x2048x1 S8x2048x64 [2] [0] [] [0] [] 2 ![1, 64]
  dot_S8x2048x64_S1024x64_S8x2048x1024_2_1_01_0_n_n_wf : DotDims.WF S8x2048x64 S1024x64 S8x2048x1024 [2] [1] [0, 1] [0] [] []
  gather_S67735x16_S8x2048x1_S8x2048x16_2_0_n_n_0_2_116_wf : GatherDims.WF S67735x16 S8x2048x1 S8x2048x16 [2] [0] [] [0] [] 2 ![1, 16]
  dot_S8x2048x16_S1024x16_S8x2048x1024_2_1_01_0_n_n_wf : DotDims.WF S8x2048x16 S1024x16 S8x2048x1024 [2] [1] [0, 1] [0] [] []

variable [Facts₀]

def gather_S20000x1024_S8x2048x1_S8x2048x1024_2_0_n_n_0_2_11024 : GatherDims S20000x1024 S8x2048x1 S8x2048x1024 where
  offsetDims := [2]
  collapsedSliceDims := [0]
  operandBatchingDims := []
  startIndicesBatchingDims := []
  startIndexMap := [0]
  indexVectorDim := 2
  sliceSizes := ![1, 1024]
  wf := gather_S20000x1024_S8x2048x1_S8x2048x1024_2_0_n_n_0_2_11024_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def gather_S20000x256_S8x2048x1_S8x2048x256_2_0_n_n_0_2_1256 : GatherDims S20000x256 S8x2048x1 S8x2048x256 where
  offsetDims := [2]
  collapsedSliceDims := [0]
  operandBatchingDims := []
  startIndicesBatchingDims := []
  startIndexMap := [0]
  indexVectorDim := 2
  sliceSizes := ![1, 256]
  wf := gather_S20000x256_S8x2048x1_S8x2048x256_2_0_n_n_0_2_1256_wf
def dot_S8x2048x256_S1024x256_S8x2048x1024_2_1_01_0_n_n : DotDims S8x2048x256 S1024x256 S8x2048x1024 where
  lhsContracting := [2]
  rhsContracting := [1]
  lhsNonContracting := [0, 1]
  rhsNonContracting := [0]
  lhsBatch := []
  rhsBatch := []
  wf := dot_S8x2048x256_S1024x256_S8x2048x1024_2_1_01_0_n_n_wf
def gather_S160000x64_S8x2048x1_S8x2048x64_2_0_n_n_0_2_164 : GatherDims S160000x64 S8x2048x1 S8x2048x64 where
  offsetDims := [2]
  collapsedSliceDims := [0]
  operandBatchingDims := []
  startIndicesBatchingDims := []
  startIndexMap := [0]
  indexVectorDim := 2
  sliceSizes := ![1, 64]
  wf := gather_S160000x64_S8x2048x1_S8x2048x64_2_0_n_n_0_2_164_wf
def dot_S8x2048x64_S1024x64_S8x2048x1024_2_1_01_0_n_n : DotDims S8x2048x64 S1024x64 S8x2048x1024 where
  lhsContracting := [2]
  rhsContracting := [1]
  lhsNonContracting := [0, 1]
  rhsNonContracting := [0]
  lhsBatch := []
  rhsBatch := []
  wf := dot_S8x2048x64_S1024x64_S8x2048x1024_2_1_01_0_n_n_wf
def gather_S67735x16_S8x2048x1_S8x2048x16_2_0_n_n_0_2_116 : GatherDims S67735x16 S8x2048x1 S8x2048x16 where
  offsetDims := [2]
  collapsedSliceDims := [0]
  operandBatchingDims := []
  startIndicesBatchingDims := []
  startIndexMap := [0]
  indexVectorDim := 2
  sliceSizes := ![1, 16]
  wf := gather_S67735x16_S8x2048x1_S8x2048x16_2_0_n_n_0_2_116_wf
def dot_S8x2048x16_S1024x16_S8x2048x1024_2_1_01_0_n_n : DotDims S8x2048x16 S1024x16 S8x2048x1024 where
  lhsContracting := [2]
  rhsContracting := [1]
  lhsNonContracting := [0, 1]
  rhsNonContracting := [0]
  lhsBatch := []
  rhsBatch := []
  wf := dot_S8x2048x16_S1024x16_S8x2048x1024_2_1_01_0_n_n_wf

class Facts : Prop extends Facts₀ where

variable [Facts]
-- ==== Proof.EntryKernel.lean ====
/-
  What the region finds. @main reaches its one pipelined region after a line of host operations (masks, clipped
  indices, row gathers, roundings, side-by-side joins, zero padding); each writes only its own result buffer. The
  contents of core `c`'s buffers at that moment are the launch memory with all of those operations applied in order.
-/
import proofs.«143205_j19877108646485_2_alg».proof.Proof.Gen.Kernel.Launch
import Idealize.ShloMosaic.Lib.StableHlo.Run

noncomputable section

namespace Cert.Kernel.Frm

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- What core `c`'s buffers hold when the region is entered: the launch memory after every host line before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- The same, read at a reference. -/
abbrev V (c : Dev nD) (b : Ref sig .tc) : Buf (Elt F) ((c : Thread nD τ).loc b) := V0 m c (Proc.devRef .tc b)

end Cert.Kernel.Frm

end
-- ==== Proof.FrameKernel.lean ====
/-
  The frame of this program: @main is a line of host operations (the masks, the clipped indices, four row gathers,
  the masked rows rounded to bf16, the three narrow tables laid side by side and padded with zero columns, the same
  for the projections), ONE pipelined region over 16 tiles of 1024 tokens, and one reshape of the region's result.
  The region's body reads the four input blocks whole, forms  (e0 · p0ᵀ + e123 · p123ᵀ) · 32  and stores it over
  the whole output block; it keeps nothing between tiles. So each output tile is a function of the four input
  blocks at that tile, every weakly fair execution ends without a fault, and no argument array is written:
  the host lines write only their own result buffers and the region writes only its result array.
-/
import proofs.«143205_j19877108646485_2_alg».proof.Proof.Gen.Kernel.Launch
import proofs.«143205_j19877108646485_2_alg».proof.Proof.EntryKernel
import proofs.«143205_j19877108646485_2_alg».proof.Proof.Gen.Kernel.Skeleton
import proofs.«143205_j19877108646485_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The reshape after the region touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's five arrays (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at tile `t`: the rows of its array, as the region finds it, that the tile's index names. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every tile, whether the tile fetched it or found it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every tile, whether the tile fetched it or found it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every tile, whether the tile fetched it or found it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every tile, whether the tile fetched it or found it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim -/

/-- A run that ends with every array of the region at what the proof data says, and every other unscoped buffer as the
    reshape leaves it, ends with the nine argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The body's accesses -/

/-- The whole 1024 × 1024 block, and the whole 1024 × 384 block. -/
abbrev rSq : Rect S1024x1024 := Rect.unit (s := S1024x1024) ![0, 0] S1024x1024.size inb_S1024x1024_S1024x1024_0_0
abbrev rNar : Rect S1024x384 := Rect.unit (s := S1024x384) ![0, 0] S1024x384.size inb_S1024x384_S1024x384_0_0

/-- What the body leaves in the output block, from the four input blocks: its one store, over the whole block. -/
def out0_4 (x0 : Vec F S1024x1024 .bf16) (x1 : Vec F S1024x384 .bf16) (x2 : Vec F S1024x1024 .bf16) (x3 : Vec F S1024x384 .bf16) :
    Vec F S1024x1024 .f32 :=
  View.canon [⟨rSq, k0_pay1 (View.ld x0 rSq) (View.ld x2 rSq) (View.ld x1 rNar) (View.ld x3 rNar)⟩]

/-- The one store covers the block. -/
theorem cover0_4 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

/-! ## The body's triple -/

set_option maxHeartbeats 1000000 in
/-- The body on whole staging buffers, the inputs' at contents `x0 … x3` and the output's at anything: it ends with the
    inputs' as they were and the output's at `out0_4` of them. -/
theorem sound_kernel (c : Dev nD) (E : Set ℕ) (i : grid0.Coords)
    (arg1 : Memref sig .tc .vmem S1024x1024 .bf16) (harg1 : arg1.IsWhole) (arg2 : Memref sig .tc .vmem S1024x384 .bf16) (harg2 : arg2.IsWhole)
    (arg3 : Memref sig .tc .vmem S1024x1024 .bf16) (harg3 : arg3.IsWhole) (arg4 : Memref sig .tc .vmem S1024x384 .bf16) (harg4 : arg4.IsWhole)
    (arg5 : Memref sig .tc .vmem S1024x1024 .f32) (harg5 : arg5.IsWhole)
    (x0 : Vec F S1024x1024 .bf16) (x1 : Vec F S1024x384 .bf16) (x2 : Vec F S1024x1024 .bf16) (x3 : Vec F S1024x384 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__combine_kernel i arg1 harg1 arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- On core `c`: the arrays as the region finds them; after the body at tile `t` each input's buffer at its block and the
    output's at `out0_4` of the four blocks; nothing carried between tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any tile: its input buffers hold their blocks, so the triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, with each of the region's arrays at what the proof
    data computes and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frm

end
-- ==== Proof.EntryKernelIdeal.lean ====
/-
  What the region finds. @main reaches its one pipelined region after a line of host operations (masks, clipped
  indices, row gathers, roundings, side-by-side joins, zero padding); each writes only its own result buffer. The
  contents of core `c`'s buffers at that moment are the launch memory with all of those operations applied in order.
-/
import proofs.«143205_j19877108646485_2_alg».proof.Proof.Gen.KernelIdeal.Launch
import Idealize.ShloMosaic.Lib.StableHlo.Run

noncomputable section

namespace Cert.KernelIdeal.Frm

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- What core `c`'s buffers hold when the region is entered: the launch memory after every host line before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- The same, read at a reference. -/
abbrev V (c : Dev nD) (b : Ref sig .tc) : Buf (Elt F) ((c : Thread nD τ).loc b) := V0 m c (Proc.devRef .tc b)

end Cert.KernelIdeal.Frm

end
-- ==== Proof.FrameKernelIdeal.lean ====
/-
  The frame of this program: @main is a line of host operations (the masks, the clipped indices, four row gathers,
  the masked rows rounded to bf16, the three narrow tables laid side by side and padded with zero columns, the same
  for the projections), ONE pipelined region over 16 tiles of 1024 tokens, and one reshape of the region's result.
  The region's body reads the four input blocks whole, forms  (e0 · p0ᵀ + e123 · p123ᵀ) · 32  and stores it over
  the whole output block; it keeps nothing between tiles. So each output tile is a function of the four input
  blocks at that tile, every weakly fair execution ends without a fault, and no argument array is written:
  the host lines write only their own result buffers and the region writes only its result array.
-/
import proofs.«143205_j19877108646485_2_alg».proof.Proof.Gen.KernelIdeal.Launch
import proofs.«143205_j19877108646485_2_alg».proof.Proof.EntryKernelIdeal
import proofs.«143205_j19877108646485_2_alg».proof.Proof.Gen.KernelIdeal.Skeleton
import proofs.«143205_j19877108646485_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The reshape after the region touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's five arrays (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does the reshape after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at tile `t`: the rows of its array, as the region finds it, that the tile's index names. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every tile, whether the tile fetched it or found it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every tile, whether the tile fetched it or found it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every tile, whether the tile fetched it or found it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every tile, whether the tile fetched it or found it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim -/

/-- A run that ends with every array of the region at what the proof data says, and every other unscoped buffer as the
    reshape leaves it, ends with the nine argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The body's accesses -/

/-- The whole 1024 × 1024 block, and the whole 1024 × 384 block. -/
abbrev rSq : Rect S1024x1024 := Rect.unit (s := S1024x1024) ![0, 0] S1024x1024.size inb_S1024x1024_S1024x1024_0_0
abbrev rNar : Rect S1024x384 := Rect.unit (s := S1024x384) ![0, 0] S1024x384.size inb_S1024x384_S1024x384_0_0

/-- What the body leaves in the output block, from the four input blocks: its one store, over the whole block. -/
def out0_4 (x0 : Vec F S1024x1024 .bf16) (x1 : Vec F S1024x384 .bf16) (x2 : Vec F S1024x1024 .bf16) (x3 : Vec F S1024x384 .bf16) :
    Vec F S1024x1024 .f32 :=
  View.canon [⟨rSq, k0_pay1 (View.ld x0 rSq) (View.ld x2 rSq) (View.ld x1 rNar) (View.ld x3 rNar)⟩]

/-- The one store covers the block. -/
theorem cover0_4 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

/-! ## The body's triple -/

set_option maxHeartbeats 1000000 in
/-- The body on whole staging buffers, the inputs' at contents `x0 … x3` and the output's at anything: it ends with the
    inputs' as they were and the output's at `out0_4` of them. -/
theorem sound_kernel (c : Dev nD) (E : Set ℕ) (i : grid0.Coords)
    (arg1 : Memref sig .tc .vmem S1024x1024 .bf16) (harg1 : arg1.IsWhole) (arg2 : Memref sig .tc .vmem S1024x384 .bf16) (harg2 : arg2.IsWhole)
    (arg3 : Memref sig .tc .vmem S1024x1024 .bf16) (harg3 : arg3.IsWhole) (arg4 : Memref sig .tc .vmem S1024x384 .bf16) (harg4 : arg4.IsWhole)
    (arg5 : Memref sig .tc .vmem S1024x1024 .f32) (harg5 : arg5.IsWhole)
    (x0 : Vec F S1024x1024 .bf16) (x1 : Vec F S1024x384 .bf16) (x2 : Vec F S1024x1024 .bf16) (x3 : Vec F S1024x384 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__combine_kernel i arg1 harg1 arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- On core `c`: the arrays as the region finds them; after the body at tile `t` each input's buffer at its block and the
    output's at `out0_4` of the four blocks; nothing carried between tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any tile: its input buffers hold their blocks, so the triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, with each of the region's arrays at what the proof
    data computes and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frm

end
-- ==== Proof.LibMatmulNT.lean ====
/-
  A matrix product against a transposed right operand, read at an entry.

  For a product of an [M, K] matrix with an [N, K] matrix in which BOTH operands contract their second axis (A · Bᵀ:
  the scores of M query rows against N key rows), taken into the zero accumulator and read at the exact extended
  reals, entry (p, q) is the sum over k of A (p, k) * B (q, k). Generic in the three extents and in the
  dimension-number record: any record with these six lists has these operand indices.
-/
import Idealize.ShloMosaic.PureOps.Ideal.Laws
import Idealize.ShloMosaic.Lib.ValueIdx

noncomputable section

namespace Cert.Lib.MatmulNT

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_nt (d : DotDims ⟨2, ![M, K]⟩ ⟨2, ![N, K]⟩ ⟨2, ![M, N]⟩) (hlc : d.lhsContracting = [1]) :
    d.contr.rank = 1 := by rw [d.rank_contr, hlc]; rfl

/-- of extent K. -/
theorem contr_size_nt (d : DotDims ⟨2, ![M, K]⟩ ⟨2, ![N, K]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_nt (d : DotDims ⟨2, ![M, K]⟩ ⟨2, ![N, K]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (q, k). -/
theorem rhsIdx_nt (d : DotDims ⟨2, ![M, K]⟩ ⟨2, ![N, K]⟩ ⟨2, ![M, N]⟩)
    (hlb : d.lhsBatch = []) (hln : d.lhsNonContracting = [0])
    (hrb : d.rhsBatch = []) (hrn : d.rhsNonContracting = [0]) (hrc : d.rhsContracting = [1])
    (hr : d.contr.rank = 1) (hs : d.contr.size ⟨0, by omega⟩ = K) (p : Fin M) (q : Fin N) (k : Fin K) :
    d.rhsIdx (ix2 p q) ((contrEquiv1 d K hr hs).symm k) = ix2 q k := by
  funext a
  apply Fin.ext
  match a with
  | ⟨0, h0⟩ =>
    have hb : (⟨0, h0⟩ : Fin 2) ∉ d.rhsBatch := by rw [hrb]; exact List.not_mem_nil
    have hn : (⟨0, h0⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])
  | ⟨1, h1⟩ =>
    exact (d.rhsIdx_val_of_single hrc (ix2 p q) _).trans (contrEquiv1_symm_val d K hr hs k)

/-- Entry (p, q) of the product into the zero accumulator is the sum over k of A (p, k) * B (q, k). -/
theorem matmul_nt_apply {φ₁ φ₂ : FTy} (d : DotDims ⟨2, ![M, K]⟩ ⟨2, ![N, K]⟩ ⟨2, ![M, N]⟩)
    (hlb : d.lhsBatch = []) (hln : d.lhsNonContracting = [0]) (hlc : d.lhsContracting = [1])
    (hrb : d.rhsBatch = []) (hrn : d.rhsNonContracting = [0]) (hrc : d.rhsContracting = [1])
    (prec : Option ContractPrecision) (A : FVec Ideal ⟨2, ![M, K]⟩ φ₁) (B : FVec Ideal ⟨2, ![N, K]⟩ φ₂)
    (p : Fin M) (q : Fin N) :
    matmul d prec A B (constant (F := Ideal) ⟨2, ![M, N]⟩ .f32 0x00000000#32) (ix2 p q)
      = ∑ k : Fin K, A (ix2 p k) * B (ix2 q k) := by
  have hr : d.contr.rank = 1 := contr_rank_nt d hlc
  have hs : d.contr.size ⟨0, by omega⟩ = K := contr_size_nt d hlc _
  refine (Ideal.matmul_constant_zero_apply d prec A B (ix2 p q)).trans ?_
  rw [← Equiv.sum_comp (contrEquiv1 d K hr hs).symm]
  refine Finset.sum_congr rfl fun k _ => ?_
  rw [lhsIdx_nt d hlb hln hlc hr hs p q k, rhsIdx_nt d hlb hln hrb hrn hrc hr hs p q k]

end Cert.Lib.MatmulNT

end
-- ==== Proof.PayloadValue.lean ====
/-
  The value the body stores, read at an entry.

  From the four blocks it loads — `e0 : [1024, 1024]` and `e123 : [1024, 384]` (a tile of 1024 tokens' rows) and
  `p0 : [1024, 1024]`, `p123 : [1024, 384]` (the projections, a row per output feature) — the body forms the two
  products that contract the second axis of both operands, adds them and scales by 32. At token `p` of the tile and
  output feature `d` that is  (∑ k, e0 (p, k) · p0 (d, k)  +  ∑ j, e123 (p, j) · p123 (d, j)) · 32.
-/
import proofs.«143205_j19877108646485_2_alg».proof.Proof.Gen.KernelIdeal.Skeleton
import proofs.«143205_j19877108646485_2_alg».proof.Proof.LibMatmulNT
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-- The stored value at token `p` of the tile and output feature `d`. -/
theorem pay_apply (v0 : FVec Ideal S1024x1024 .bf16) (v2 : FVec Ideal S1024x1024 .bf16)
    (v5 : FVec Ideal S1024x384 .bf16) (v7 : FVec Ideal S1024x384 .bf16) (p d : Fin 1024) :
    k0_pay1 (F := Ideal) v0 v2 v5 v7 (ix2 p d)
      = ((∑ k : Fin 1024, v0 (ix2 p k) * v2 (ix2 d k)) + (∑ j : Fin 384, v5 (ix2 p j) * v7 (ix2 d j)))
          * Ideal.ofBits .f32 0x42000000#32 := by
  unfold k0_pay1
  rw [mulf_apply, addf_apply, broadcast_apply, shapeCast_self, shapeCast_self, shapeCast_self, shapeCast_self]
  refine congrArg₂ (· * ·) (congrArg₂ (· + ·) ?_ ?_) rfl
  · exact Cert.Lib.MatmulNT.matmul_nt_apply _ rfl rfl rfl rfl rfl rfl none v0 v2 p d
  · exact Cert.Lib.MatmulNT.matmul_nt_apply _ rfl rfl rfl rfl rfl rfl none v5 v7 p d

end Cert.KernelIdeal.Pay

end
-- ==== Proof.ArrValue.lean ====
/-
  The region's result array as one function of what the region finds.

  Tile `t` (of 16) stages rows `1024 t … 1024 t + 1023` of the two token arrays, the two projection arrays whole, and
  writes back rows `1024 t … 1024 t + 1023` of the result. What it writes at token `p` of the tile and feature `d` is the
  stored value of the four blocks, so the result array's entry `(n, d)` is
      (∑ k, e0 (n, k) · p0 (d, k)  +  ∑ j, e123 (n, j) · p123 (d, j)) · 32,
  the sums over the rows of the arrays as the region finds them; the sixteen tiles cover the array (entry `(n, d)`
  lies in tile `n / 1024`).
-/
import proofs.«143205_j19877108646485_2_alg».proof.Proof.FrameKernelIdeal
import proofs.«143205_j19877108646485_2_alg».proof.Proof.PayloadValue
import Idealize.ShloMosaic.Lib.Pipeline.Value

set_option maxRecDepth 16384

noncomputable section

namespace Cert.KernelIdeal.Arr

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-- The four arrays the region stages, as it finds them: band 0's rows, the joined bands' rows, band 0's projection, the
    joined projections. -/
def aE0 : S16384x1024.Idx → EReal := V m c main_v18
def aE123 : S16384x384.Idx → EReal := V m c main_v74
def aP0 : S1024x1024.Idx → EReal := V m c main_v75
def aP123 : S1024x384.Idx → EReal := V m c main_v78

/-- The region's result at token `n` and feature `d`, from the four staged arrays. -/
def H (n : Fin 16384) (d : Fin 1024) : EReal :=
  ((∑ k : Fin 1024, aE0 m c (ix2 n k) * aP0 m c (ix2 d k)) + (∑ j : Fin 384, aE123 m c (ix2 n j) * aP123 m c (ix2 d j)))
  * Ideal.ofBits .f32 0x42000000#32

/-- The same as an array. -/
def Harr : S16384x1024.Idx → EReal := fun i => H m c (i 0) (i 1)

/-- The token that row `p` of tile `t` is. -/
def tokOf (t : Fin cfg0.N) (p : Fin 1024) : Fin 16384 :=
  ⟨t.val * 1024 + p.val, by have := t.isLt; have hN : cfg0.N = 16 := N_0; omega⟩

/-- The index maps over the grid: the token arrays and the result move one block of rows per tile, the projections stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Band 0's block at tile `t`, entry `(p, k)`: row `1024 t + p` of the array. -/
theorem blk0 (t : Fin cfg0.N) (p : Fin 1024) (k : Fin 1024) :
    (iblk m c 0 t : S1024x1024.Idx → EReal) (ix2 p k) = aE0 m c (ix2 (tokOf t p) k) := by
  show (V m c main_v18 : S16384x1024.Idx → EReal) (((cfg0.win 0).blk t).view.emb (ix2 p k)) = (V m c main_v18 : S16384x1024.Idx → EReal) (ix2 (tokOf t p) k)
  refine congrArg _ ?_
  obtain ⟨e0, e1, -⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The joined bands' block likewise. -/
theorem blk1 (t : Fin cfg0.N) (p : Fin 1024) (j : Fin 384) :
    (iblk m c 1 t : S1024x384.Idx → EReal) (ix2 p j) = aE123 m c (ix2 (tokOf t p) j) := by
  show (V m c main_v74 : S16384x384.Idx → EReal) (((cfg0.win 1).blk t).view.emb (ix2 p j)) = (V m c main_v74 : S16384x384.Idx → EReal) (ix2 (tokOf t p) j)
  refine congrArg _ ?_
  obtain ⟨-, -, e0, e1, -⟩ := idx_facts t
  funext a; apply Fin.ext
  match a with
  | ⟨0, _⟩ => show win0_1.index t (0 : Fin 2) * 1024 + 1 * p.val = t.val * 1024 + p.val; omega
  | ⟨1, _⟩ => show win0_1.index t (1 : Fin 2) * 384 + 1 * j.val = j.val; omega

/-- Band 0's projection is staged whole at every tile. -/
theorem blk2 (t : Fin cfg0.N) (d : Fin 1024) (k : Fin 1024) :
    (iblk m c 2 t : S1024x1024.Idx → EReal) (ix2 d k) = aP0 m c (ix2 d k) := by
  show (V m c main_v75 : S1024x1024.Idx → EReal) (((cfg0.win 2).blk t).view.emb (ix2 d k)) = (V m c main_v75 : S1024x1024.Idx → EReal) (ix2 d k)
  refine congrArg _ ?_
  obtain ⟨-, -, -, -, e0, e1, -⟩ := idx_facts t
  funext a; apply Fin.ext
  match a with
  | ⟨0, _⟩ => show win0_2.index t (0 : Fin 2) * 1024 + 1 * d.val = d.val; omega
  | ⟨1, _⟩ => show win0_2.index t (1 : Fin 2) * 1024 + 1 * k.val = k.val; omega

/-- So are the joined projections. -/
theorem blk3 (t : Fin cfg0.N) (d : Fin 1024) (j : Fin 384) :
    (iblk m c 3 t : S1024x384.Idx → EReal) (ix2 d j) = aP123 m c (ix2 d j) := by
  show (V m c main_v78 : S1024x384.Idx → EReal) (((cfg0.win 3).blk t).view.emb (ix2 d j)) = (V m c main_v78 : S1024x384.Idx → EReal) (ix2 d j)
  refine congrArg _ ?_
  obtain ⟨-, -, -, -, -, -, e0, e1, -⟩ := idx_facts t
  funext a; apply Fin.ext
  match a with
  | ⟨0, _⟩ => show win0_3.index t (0 : Fin 2) * 1024 + 1 * d.val = d.val; omega
  | ⟨1, _⟩ => show win0_3.index t (1 : Fin 2) * 384 + 1 * j.val = j.val; omega

/-- Entry `(p, d)` of the result's block at tile `t` is entry `(1024 t + p, d)` of the result array. -/
theorem emb4 (t : Fin cfg0.N) (p : Fin 1024) (d : Fin 1024) :
    ((cfg0.win 4).blk t).view.emb (ix2 p d) = (ix2 (tokOf t p) d : S16384x1024.Idx) := by
  obtain ⟨-, -, -, -, -, -, -, -, e0, e1⟩ := idx_facts t
  funext a; apply Fin.ext
  match a with
  | ⟨0, _⟩ => show win0_4.index t (0 : Fin 2) * 1024 + 1 * p.val = t.val * 1024 + p.val; omega
  | ⟨1, _⟩ => show win0_4.index t (1 : Fin 2) * 1024 + 1 * d.val = d.val; omega

/-- WHAT TILE `t` WRITES BACK is block `t` of the one function. -/
theorem flushed_eq (t : Fin cfg0.N) :
    (dats m 0 c).flushed 4 t = ((cfg0.win 4).blk t).view.read (Elt Ideal) (Harr m c) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1024x384) hz]
  funext y
  obtain ⟨p, d, rfl⟩ : ∃ (p : Fin 1024) (d : Fin 1024), y = ix2 p d := ⟨y 0, y 1, eq_ix2 y⟩
  show k0_pay1 (F := Ideal) (iblk m c 0 t) (iblk m c 2 t) (iblk m c 1 t) (iblk m c 3 t) (ix2 p d)
    = Harr m c (((cfg0.win 4).blk t).view.emb (ix2 p d))
  rw [emb4 t p d]
  refine (Pay.pay_apply (iblk m c 0 t) (iblk m c 2 t) (iblk m c 1 t) (iblk m c 3 t) p d).trans ?_
  show _ = H m c (tokOf t p) d
  unfold H
  simp only [blk0 m c t, blk1 m c t, blk2 m c t, blk3 m c t]

/-- An index of the result array is in tile `t`'s block iff each coordinate is in the block's range. -/
theorem mem_blk (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v79).slice (win0_4.rect t)).set ↔ _
  rw [View.set_slice_whole, Rect.mem_set_unit]
  exact Iff.rfl

/-- The tiles cover the result array: entry `(n, d)` lies in tile `n / 1024`. -/
theorem cover (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 16 := N_0
  refine ⟨⟨(i 0).val / 1024, by omega⟩, flush0_4 _, ?_⟩
  rw [mem_blk]
  obtain ⟨-, -, -, -, -, -, -, -, e0, e1⟩ := idx_facts ⟨(i 0).val / 1024, by omega⟩
  intro a
  match a with
  | ⟨0, _⟩ =>
    show win0_4.index ⟨(i 0).val / 1024, _⟩ (0 : Fin 2) * 1024 ≤ (i 0).val
      ∧ (i 0).val < win0_4.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, _⟩ (1 : Fin 2) * 1024 ≤ (i 1).val
      ∧ (i 1).val < win0_4.index ⟨(i 0).val / 1024, _⟩ (1 : Fin 2) * 1024 + 1024
    rw [e1]; omega

/-- THE RESULT ARRAY after the region. -/
theorem final : (dats m 0 c).arrAt 4 cfg0.N = Harr m c :=
  (dats m 0 c).arrAt_eq_of_cover 4 (Harr m c) (fun t _ => flushed_eq m c t) (cover)

end Cert.KernelIdeal.Arr

end
-- ==== Proof.Spec.lean ====
/-
  The embedding this kernel and its reference both compute, as ONE function of the argument arrays.

  The vocabulary is cut into four bands `[lo, hi)`; band `i` has its own table of `R_i` rows of width `C_i` and its own
  projection `[1024, C_i]`. A token `id` in band `i` reads row `id - lo` of that band's table (the difference clipped
  into `[0, R_i - 1]`, a negative one wrapped by `+ R_i`, and the gather clamps once more), and its contribution to
  output feature `d` is that row dotted with row `d` of the projection; a token outside the band contributes `0`.
  The result at `(b, s, d)` is the sum of the four bands' contributions of token `ids (b, s)`, times `32 = √1024`.
-/
import Idealize.ShloMosaic.PureOps.Ideal
import Idealize.ShloMosaic.Lib.ValueIdx

noncomputable section

namespace Cert.Emb

open Idealize.ShloMosaic Idealize.ShloMosaic.ValueIdx

/-- The token lies in the band `[lo, hi)`, both bounds compared signed: the bit is `1` exactly then. -/
def inBand (lo hi id : BitVec 32) : BitVec 1 := IntOp.andi (IntOp.cmpi .sge id lo) (IntOp.cmpi .slt id hi)

/-- `id - lo` clipped into `[0, top]`. -/
def clipped (lo top id : BitVec 32) : BitVec 32 := IntOp.minsi top (IntOp.maxsi 0#32 (IntOp.subi id lo))

/-- The start index handed to the gather: the clipped difference, a negative one wrapped by the table's height. -/
def startIx (lo top R id : BitVec 32) : BitVec 32 :=
  Scalar.select (IntOp.cmpi .slt (clipped lo top id) 0#32) (IntOp.addi (clipped lo top id) R) (clipped lo top id)

/-- The row of a table of `R` rows a start index names: read signed, clamped into `[0, R - 1]`. -/
def rowAt (R : Nat) (hR : 0 < R) (j : BitVec 32) : Fin R := ⟨min j.toInt.toNat (R - 1), by omega⟩

/-- One band's contribution at token `id` and output feature `d`: the row the token names dotted with the projection's
    row `d`, or `0` for a token outside the band. -/
def band {R C : Nat} (hR : 0 < R) (lo hi top Rw : BitVec 32)
    (emb : (⟨2, ![R, C]⟩ : Shape).Idx → EReal) (proj : (⟨2, ![1024, C]⟩ : Shape).Idx → EReal)
    (id : BitVec 32) (d : Fin 1024) : EReal :=
  Scalar.select (inBand lo hi id)
    (∑ k : Fin C, emb (ix2 (rowAt R hR (startIx lo top Rw id)) k) * proj (ix2 d k)) 0

/-- The four bands of this vocabulary. -/
def band0 (emb : (⟨2, ![20000, 1024]⟩ : Shape).Idx → EReal) (proj : (⟨2, ![1024, 1024]⟩ : Shape).Idx → EReal)
    (id : BitVec 32) (d : Fin 1024) : EReal :=
  band (R := 20000) (by decide) 0#32 20000#32 19999#32 20000#32 emb proj id d
def band1 (emb : (⟨2, ![20000, 256]⟩ : Shape).Idx → EReal) (proj : (⟨2, ![1024, 256]⟩ : Shape).Idx → EReal)
    (id : BitVec 32) (d : Fin 1024) : EReal :=
  band (R := 20000) (by decide) 20000#32 40000#32 19999#32 20000#32 emb proj id d
def band2 (emb : (⟨2, ![160000, 64]⟩ : Shape).Idx → EReal) (proj : (⟨2, ![1024, 64]⟩ : Shape).Idx → EReal)
    (id : BitVec 32) (d : Fin 1024) : EReal :=
  band (R := 160000) (by decide) 40000#32 200000#32 159999#32 160000#32 emb proj id d
def band3 (emb : (⟨2, ![67735, 16]⟩ : Shape).Idx → EReal) (proj : (⟨2, ![1024, 16]⟩ : Shape).Idx → EReal)
    (id : BitVec 32) (d : Fin 1024) : EReal :=
  band (R := 67735) (by decide) 200000#32 267735#32 67734#32 67735#32 emb proj id d

/-- The scale `√1024 = 32`, as the float word both programs carry. -/
def scale : EReal := Ideal.ofBits .f32 0x42000000#32

/-- THE RESULT at `(b, s, d)`: the four bands' contributions of token `ids (b, s)` summed, times the scale. -/
def G (ids : IVec ⟨2, ![8, 2048]⟩ 32)
    (e0 : (⟨2, ![20000, 1024]⟩ : Shape).Idx → EReal) (e1 : (⟨2, ![20000, 256]⟩ : Shape).Idx → EReal)
    (e2 : (⟨2, ![160000, 64]⟩ : Shape).Idx → EReal) (e3 : (⟨2, ![67735, 16]⟩ : Shape).Idx → EReal)
    (p0 : (⟨2, ![1024, 1024]⟩ : Shape).Idx → EReal) (p1 : (⟨2, ![1024, 256]⟩ : Shape).Idx → EReal)
    (p2 : (⟨2, ![1024, 64]⟩ : Shape).Idx → EReal) (p3 : (⟨2, ![1024, 16]⟩ : Shape).Idx → EReal) :
    (⟨3, ![8, 2048, 1024]⟩ : Shape).Idx → EReal := fun i =>
  (band0 e0 p0 (ids (ix2 (i 0) (i 1))) (i 2) + band1 e1 p1 (ids (ix2 (i 0) (i 1))) (i 2)
    + band2 e2 p2 (ids (ix2 (i 0) (i 1))) (i 2) + band3 e3 p3 (ids (ix2 (i 0) (i 1))) (i 2)) * scale

end Cert.Emb

end
-- ==== Proof.LibGatherRows.lean ====
/-
  A `stablehlo.gather` of whole rows, read at an index.

  `x[idx]` for a matrix `x : [R, C]` and an integer vector `idx : [K]` lowers to a gather whose start indices are the
  column `[K, 1]`, with offset axis 1, collapsed operand axis 0, start index map `[0]`, the index vector on axis 1 and
  slices of one whole row, `[1, C]`. Entry `(e, j)` of the result is the operand's entry `(r e, j)`, where the row
  `r e` is the start index `idx[e, 0]` read as a signed integer and clamped into `[0, R - 1]`. The row depends on the
  start indices and on `e` alone: not on the operand and not on the column `j`. So gathering rows commutes with any
  map that acts on each row by itself.
-/
import Idealize.ShloMosaic.Lib.ValueIdx

noncomputable section

namespace Idealize.ShloMosaic.GatherRows

open Idealize.ShloMosaic Idealize.ShloMosaic.ValueIdx

/-- The dimension numbers of a row gather: operand `[R, C]`, start indices `[K, 1]`, result `[K, C]`. -/
abbrev rowsDims (R C K : Nat)
    (wf : GatherDims.WF ⟨2, ![R, C]⟩ ⟨2, ![K, 1]⟩ ⟨2, ![K, C]⟩ [1] [0] [] [0] [] 1 ![1, C]) :
    GatherDims ⟨2, ![R, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The row that result row `e` reads: the start index `idx[e, 0]`, signed, clamped into `[0, R - 1]`. -/
def rowOf {R K w : Nat} (hR : 0 < R) (idx : IVec ⟨2, ![K, 1]⟩ w) (e : Fin K) : Fin R :=
  ⟨min (idx (ix2 e (0 : Fin 1))).toInt.toNat (R - 1), by omega⟩

/-- On the row axis the operand index is the clamped start index: no batching coordinate, and no offset coordinate
    because the row axis is collapsed. -/
theorem operandIdx_rows_0 {R C K w : Nat} (hR : 0 < R)
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    ((rowsDims R C K wf).operandIdx (ix2 e j) idx (0 : Fin 2)).val = (rowOf hR idx e).val := by
  show (rowsDims R C K wf).start (ix2 e j) idx (0 : Fin 2) + (rowsDims R C K wf).batchCoord (ix2 e j) (0 : Fin 2)
      + (rowsDims R C K wf).offCoord (ix2 e j) (0 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims R C K wf).startIndexMap from List.mem_singleton.mpr rfl)]
  have hsi : (rowsDims R C K wf).siIdx (ix2 e j) ⟨List.idxOf (0 : Fin 2) (rowsDims R C K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index is the result's column: the start index map does not name the axis, and it is
    the one offset axis. -/
theorem operandIdx_rows_1 {R C K w : Nat}
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    ((rowsDims R C K wf).operandIdx (ix2 e j) idx (1 : Fin 2)).val = j.val := by
  show (rowsDims R C K wf).start (ix2 e j) idx (1 : Fin 2) + (rowsDims R C K wf).batchCoord (ix2 e j) (1 : Fin 2)
      + (rowsDims R C K wf).offCoord (ix2 e j) (1 : Fin 2) = _
  have hs : (rowsDims R C K wf).start (ix2 e j) idx (1 : Fin 2) = 0 := by
    unfold GatherDims.start
    rw [dif_neg (show ¬ (1 : Fin 2) ∈ ([0] : List (Fin 2)) by decide)]
  have hk : (1 : Fin 2) ∈ (rowsDims R C K wf).sKept :=
    (GatherDims.mem_sKept _ _).mpr ⟨(show ¬ (1 : Fin 2) ∈ ([0] : List (Fin 2)) by decide), List.not_mem_nil⟩
  rw [GatherDims.batchCoord_eq_zero _ _ _ List.not_mem_nil, Nat.add_zero, hs, Nat.zero_add]
  unfold GatherDims.offCoord
  rw [dif_pos hk]
  rfl

/-- The operand index of result entry `(e, j)` is `(rowOf e, j)`. -/
theorem operandIdx_rows {R C K w : Nat} (hR : 0 < R)
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    (rowsDims R C K wf).operandIdx (ix2 e j) idx = ix2 (rowOf hR idx e) j := by
  funext a
  refine Fin.ext ?_
  match a with
  | ⟨0, _⟩ => exact operandIdx_rows_0 hR wf idx e j
  | ⟨1, _⟩ => exact operandIdx_rows_1 wf idx e j

/-- THE ROW GATHER READ AT `(e, j)`: the operand's entry `(rowOf e, j)`. -/
theorem gather_rows_apply {α : Type} {R C K w : Nat} (hR : 0 < R)
    (wf : GatherDims.WF ⟨2, ![R, C]⟩ ⟨2, ![K, 1]⟩ ⟨2, ![K, C]⟩ [1] [0] [] [0] [] 1 ![1, C])
    (x : (⟨2, ![R, C]⟩ : Shape).Idx → α) (idx : IVec ⟨2, ![K, 1]⟩ w) (e : Fin K) (j : Fin C) :
    Host.gather (rowsDims R C K wf) x idx (ix2 e j) = x (ix2 (rowOf hR idx e) j) := by
  unfold Host.gather
  rw [operandIdx_rows hR wf idx e j]

/-- Gathering rows commutes with a map that acts row by row: if `y`'s entry `(r, j)` is `f` of `x`'s row `r` (and of
    `j`), then the gather of `y` at `(e, j)` is `f` of the gathered row `e` of `x`. -/
theorem gather_rows_rowwise {α β : Type} {R C K w : Nat} (hR : 0 < R)
    (wf : GatherDims.WF ⟨2, ![R, C]⟩ ⟨2, ![K, 1]⟩ ⟨2, ![K, C]⟩ [1] [0] [] [0] [] 1 ![1, C])
    (f : (Fin C → α) → Fin C → β) (x : (⟨2, ![R, C]⟩ : Shape).Idx → α) (y : (⟨2, ![R, C]⟩ : Shape).Idx → β)
    (hy : ∀ (r : Fin R) (j : Fin C), y (ix2 r j) = f (fun k => x (ix2 r k)) j)
    (idx : IVec ⟨2, ![K, 1]⟩ w) (e : Fin K) (j : Fin C) :
    Host.gather (rowsDims R C K wf) y idx (ix2 e j)
      = f (fun k => Host.gather (rowsDims R C K wf) x idx (ix2 e k)) j := by
  rw [gather_rows_apply hR wf y idx e j, hy]
  exact congrArg (fun g => f g j) (funext fun k => (gather_rows_apply hR wf x idx e k).symm)

end Idealize.ShloMosaic.GatherRows

end
-- ==== Proof.PrefixBand.lean ====
/-
  The host operations one band of the embedding is made of, read at an entry.

  Every band is the same line of operations over its own constants: the flat token ids compared with the band's two
  bounds (the mask), the difference to the lower bound clipped into the table's rows and a negative one wrapped (the
  start index), the table's rows gathered at the start indices, the rows of tokens outside the band replaced by the
  float zero, and the rounding to bf16, which is the identity on extended reals. The integer steps act entry by
  entry, so they read at an entry by unfolding; the layout steps (the flattening of the ids, the broadcasts of a
  vector to a column and of a column to rows, the row gather) name the operand's entry explicitly.
-/
import proofs.«143205_j19877108646485_2_alg».proof.Proof.Spec
import proofs.«143205_j19877108646485_2_alg».proof.Proof.LibGatherRows
import Idealize.ShloMosaic.Lib.ValueIdx
import Idealize.ShloMosaic.Lib.Pipeline.Value
import Idealize.ShloMosaic.Lib.KernelVsHost
import Idealize.ShloMosaic.PureOps.Ideal.Laws

noncomputable section

namespace Cert.Emb.HostOps

open Idealize.ShloMosaic Idealize.ShloMosaic.ValueIdx

/-- The flattening `[8, 2048] → [16384]` read at `n`: the entry `(n / 2048, n % 2048)`. -/
theorem flat_apply {α : Type} (x : (⟨2, ![8, 2048]⟩ : Shape).Idx → α)
    (h : (⟨2, ![8, 2048]⟩ : Shape).ShapeCasts ⟨1, ![16384]⟩) (n : Fin 16384) :
    shapeCast ⟨1, ![16384]⟩ x h (ix1 n)
      = x (ix2 (⟨n.val / 2048, by omega⟩ : Fin 8) (⟨n.val % 2048, by omega⟩ : Fin 2048)) :=
  shapeCast_apply x h (ix1 n) (ix2 (⟨n.val / 2048, by omega⟩ : Fin 8) (⟨n.val % 2048, by omega⟩ : Fin 2048)) (by
    rw [Shape.rowMajor_val_two, Shape.rowMajor_val_one]
    show n.val / 2048 * 2048 + n.val % 2048 = n.val
    omega)

/-- A vector broadcast to a one-column matrix, read at row `n`. -/
theorem col_apply {α : Type} (h : (⟨1, ![16384]⟩ : Shape).BroadcastsInDim ⟨2, ![16384, 1]⟩ ![0])
    (y : (⟨1, ![16384]⟩ : Shape).Idx → α) (n : Fin 16384) (z : Fin 1) :
    broadcastInDim ⟨2, ![16384, 1]⟩ ![0] h y (ix2 n z) = y (ix1 n) :=
  broadcastInDim_apply _ h y (ix2 n z) (ix1 n) (fun a => match a with
    | ⟨0, _⟩ => by show n.val = if (16384 : Nat) = 1 then 0 else n.val; rw [if_neg (by decide)])

/-- A one-column matrix broadcast along its rows, read at `(n, k)`: the column's entry `n`. -/
theorem rowsOfCol_apply {α : Type} {C : Nat} (h : (⟨2, ![16384, 1]⟩ : Shape).BroadcastsInDim ⟨2, ![16384, C]⟩ ![0, 1])
    (y : (⟨2, ![16384, 1]⟩ : Shape).Idx → α) (n : Fin 16384) (k : Fin C) :
    broadcastInDim ⟨2, ![16384, C]⟩ ![0, 1] h y (ix2 n k) = y (ix2 n (0 : Fin 1)) :=
  broadcastInDim_apply _ h y (ix2 n k) (ix2 n (0 : Fin 1)) (fun a => match a with
    | ⟨0, _⟩ => by show n.val = if (16384 : Nat) = 1 then 0 else n.val; rw [if_neg (by decide)]
    | ⟨1, _⟩ => by show 0 = if (1 : Nat) = 1 then 0 else k.val; rw [if_pos rfl])

/-- The row a start index names, in the two spellings. -/
theorem rowOf_eq {R : Nat} (hR : 0 < R) (idx : IVec ⟨2, ![16384, 1]⟩ 32) (e : Fin 16384) :
    GatherRows.rowOf hR idx e = Emb.rowAt R hR (idx (ix2 e (0 : Fin 1))) := rfl

/-- ONE BAND'S ROWS read at `(n, k)`: the table's entry `(row, k)`, the row named by token `n`'s start index, or the
    float zero where the mask is off. -/
theorem maskedRows_apply {R C : Nat} (hR : 0 < R)
    (wf : GatherDims.WF ⟨2, ![R, C]⟩ ⟨2, ![16384, 1]⟩ ⟨2, ![16384, C]⟩ [1] [0] [] [0] [] 1 ![1, C])
    (hcol : (⟨1, ![16384]⟩ : Shape).BroadcastsInDim ⟨2, ![16384, 1]⟩ ![0])
    (hrow : (⟨2, ![16384, 1]⟩ : Shape).BroadcastsInDim ⟨2, ![16384, C]⟩ ![0, 1])
    (hz : (⟨0, ![]⟩ : Shape).BroadcastsInDim ⟨2, ![16384, C]⟩ ![])
    (hb : FTy.bits .bf16 < FTy.bits .f32)
    (mask : IVec ⟨1, ![16384]⟩ 1) (start : IVec ⟨1, ![16384]⟩ 32) (tbl : (⟨2, ![R, C]⟩ : Shape).Idx → EReal)
    (n : Fin 16384) (k : Fin C) :
    (truncf (F := Ideal) .bf16
        (select (broadcastInDim ⟨2, ![16384, C]⟩ ![0, 1] hrow (broadcastInDim ⟨2, ![16384, 1]⟩ ![0] hcol mask))
          (Host.gather (GatherRows.rowsDims R C 16384 wf) (tbl : FVec Ideal ⟨2, ![R, C]⟩ .f32)
            (broadcastInDim ⟨2, ![16384, 1]⟩ ![0] hcol start))
          (broadcastInDim ⟨2, ![16384, C]⟩ ![] hz (constant (F := Ideal) ⟨0, ![]⟩ .f32 0x00000000#32))) hb
        : (⟨2, ![16384, C]⟩ : Shape).Idx → EReal) (ix2 n k)
      = Scalar.select (mask (ix1 n)) (tbl (ix2 (Emb.rowAt R hR (start (ix1 n))) k)) (Ideal.ofBits .f32 0x00000000#32) := by
  rw [truncf_apply, select_apply, rowsOfCol_apply, col_apply, GatherRows.gather_rows_apply hR, rowOf_eq, col_apply]
  rfl

/-- ONE BAND'S ROWS: the table's rows gathered at the start indices, the rows of masked-off tokens replaced by the
    float zero, rounded to bf16. -/
def rowsV {R C : Nat}
    (wf : GatherDims.WF ⟨2, ![R, C]⟩ ⟨2, ![16384, 1]⟩ ⟨2, ![16384, C]⟩ [1] [0] [] [0] [] 1 ![1, C])
    (hcol : (⟨1, ![16384]⟩ : Shape).BroadcastsInDim ⟨2, ![16384, 1]⟩ ![0])
    (hrow : (⟨2, ![16384, 1]⟩ : Shape).BroadcastsInDim ⟨2, ![16384, C]⟩ ![0, 1])
    (hz : (⟨0, ![]⟩ : Shape).BroadcastsInDim ⟨2, ![16384, C]⟩ ![])
    (hb : FTy.bits .bf16 < FTy.bits .f32)
    (mask : IVec ⟨1, ![16384]⟩ 1) (start : IVec ⟨1, ![16384]⟩ 32) (tbl : (⟨2, ![R, C]⟩ : Shape).Idx → EReal) :
    (⟨2, ![16384, C]⟩ : Shape).Idx → EReal :=
  truncf (F := Ideal) .bf16
    (select (broadcastInDim ⟨2, ![16384, C]⟩ ![0, 1] hrow (broadcastInDim ⟨2, ![16384, 1]⟩ ![0] hcol mask))
      (Host.gather (GatherRows.rowsDims R C 16384 wf) (tbl : FVec Ideal ⟨2, ![R, C]⟩ .f32)
        (broadcastInDim ⟨2, ![16384, 1]⟩ ![0] hcol start))
      (broadcastInDim ⟨2, ![16384, C]⟩ ![] hz (constant (F := Ideal) ⟨0, ![]⟩ .f32 0x00000000#32))) hb

/-- The band's rows read at `(n, k)`: the table's entry `(row, k)`, the row named by token `n`'s start index, or the
    float zero where the mask is off. -/
theorem rowsV_apply {R C : Nat} (hR : 0 < R)
    (wf : GatherDims.WF ⟨2, ![R, C]⟩ ⟨2, ![16384, 1]⟩ ⟨2, ![16384, C]⟩ [1] [0] [] [0] [] 1 ![1, C])
    (hcol : (⟨1, ![16384]⟩ : Shape).BroadcastsInDim ⟨2, ![16384, 1]⟩ ![0])
    (hrow : (⟨2, ![16384, 1]⟩ : Shape).BroadcastsInDim ⟨2, ![16384, C]⟩ ![0, 1])
    (hz : (⟨0, ![]⟩ : Shape).BroadcastsInDim ⟨2, ![16384, C]⟩ ![])
    (hb : FTy.bits .bf16 < FTy.bits .f32)
    (mask : IVec ⟨1, ![16384]⟩ 1) (start : IVec ⟨1, ![16384]⟩ 32) (tbl : (⟨2, ![R, C]⟩ : Shape).Idx → EReal)
    (n : Fin 16384) (k : Fin C) :
    rowsV wf hcol hrow hz hb mask start tbl (ix2 n k)
      = Scalar.select (mask (ix1 n)) (tbl (ix2 (Emb.rowAt R hR (start (ix1 n))) k)) (Ideal.ofBits .f32 0x00000000#32) :=
  maskedRows_apply hR wf hcol hrow hz hb mask start tbl n k

/-! ## The integer chain of a band, as vectors over the flat token axis -/

section Chain
variable (hs : (⟨0, ![]⟩ : Shape).BroadcastsInDim ⟨1, ![16384]⟩ ![])

/-- A constant spread over the flat token axis. -/
def spread (v : BitVec 32) : IVec ⟨1, ![16384]⟩ 32 := broadcastInDim ⟨1, ![16384]⟩ ![] hs (constantI ⟨0, ![]⟩ 32 v)

/-- The band's mask: `lo ≤ id < hi`, both signed. -/
def maskV (lo hi : BitVec 32) (x : IVec ⟨1, ![16384]⟩ 32) : IVec ⟨1, ![16384]⟩ 1 :=
  andi (cmpi .sge x (spread hs lo)) (cmpi .slt x (spread hs hi))

/-- `id - lo` clipped into `[0, top]`. -/
def clipV (lo top : BitVec 32) (x : IVec ⟨1, ![16384]⟩ 32) : IVec ⟨1, ![16384]⟩ 32 :=
  minsi (spread hs top) (maxsi (spread hs 0#32) (subi x (spread hs lo)))

/-- The start index: the clipped difference, a negative one wrapped by the table's height. -/
def startV (lo top R : BitVec 32) (x : IVec ⟨1, ![16384]⟩ 32) : IVec ⟨1, ![16384]⟩ 32 :=
  select (cmpi .slt (clipV hs lo top x) (spread hs 0#32)) (addi (clipV hs lo top x) (spread hs R)) (clipV hs lo top x)

theorem maskV_apply (lo hi : BitVec 32) (x : IVec ⟨1, ![16384]⟩ 32) (i : (⟨1, ![16384]⟩ : Shape).Idx) :
    maskV hs lo hi x i = Emb.inBand lo hi (x i) := rfl

theorem startV_apply (lo top R : BitVec 32) (x : IVec ⟨1, ![16384]⟩ 32) (i : (⟨1, ![16384]⟩ : Shape).Idx) :
    startV hs lo top R x i = Emb.startIx lo top R (x i) := rfl

end Chain

end Cert.Emb.HostOps

end
-- ==== Proof.PrefixTerms.lean ====
/-
  The four arrays the region stages, each as ONE term of the argument arrays.

  The host lines before the region write each buffer once. Following a staged array back through the lines that wrote
  it and its operands gives the array as a composition of the operations' functions over the argument arrays: band
  0's rows; bands 1, 2, 3's rows joined and padded; band 0's projection rounded; bands 1, 2, 3's projections joined,
  padded and rounded.
-/
import proofs.«143205_j19877108646485_2_alg».proof.Proof.EntryKernelIdeal
import Idealize.ShloMosaic.Lib.StableHlo.Run
import proofs.«143205_j19877108646485_2_alg».proof.Proof.PrefixBand

noncomputable section

namespace Cert.KernelIdeal.Prefix

open Cert.KernelIdeal Cert.KernelIdeal.Gen Cert.KernelIdeal.Frm
open Idealize.ShloMosaic Idealize.ShloMosaic.TcCoe Idealize.ShloMosaic.ValueIdx Idealize.SL.Sem
open Idealize.ShloMosaic.StableHlo Cert.Emb.HostOps

variable (m : (ℓ : Loc nD τ sig) → Buf (Elt Ideal) ℓ) (c : Dev nD)

/-- Three arrays joined along an axis, the pieces as separate arguments. -/
def join3 {α : Type} (t : Shape) (a : Fin t.rank) {s1 s2 s3 : Shape} (x1 : s1.Idx → α) (x2 : s2.Idx → α) (x3 : s3.Idx → α)
    (h : Shape.Concatenates [s1, s2, s3] t a) : t.Idx → α :=
  concatenate t a [⟨s1, x1⟩, ⟨s2, x2⟩, ⟨s3, x3⟩] h

/-- What the join of the three bands' rows writes: the join of what its three operand buffers hold. -/
theorem v73_result (hxs hy) (F : Valuation τ sig (Elt Ideal)) :
    (StableHlo.nary (τ := τ) ![main_v36, main_v54, main_v72] main_v73
        (fun u => concatenate S16384x336 1 [⟨S16384x256, u 0⟩, ⟨S16384x64, u 1⟩, ⟨S16384x16, u 2⟩]
          concatenates_S16384x256_S16384x64_S16384x16_S16384x336_d1) hxs hy).result F (no_index (Proc.devRef .tc main_v73))
      = join3 S16384x336 1 (F (Proc.devRef .tc main_v36) : S16384x256.Idx → EReal)
          (F (Proc.devRef .tc main_v54) : S16384x64.Idx → EReal) (F (Proc.devRef .tc main_v72) : S16384x16.Idx → EReal)
          concatenates_S16384x256_S16384x64_S16384x16_S16384x336_d1 := by
  rw [nary_result]; rfl

/-- What the join of the three projections writes. -/
theorem v76_result (hxs hy) (F : Valuation τ sig (Elt Ideal)) :
    (StableHlo.nary (τ := τ) ![main_arg6, main_arg7, main_arg8] main_v76
        (fun u => concatenate S1024x336 1 [⟨S1024x256, u 0⟩, ⟨S1024x64, u 1⟩, ⟨S1024x16, u 2⟩]
          concatenates_S1024x256_S1024x64_S1024x16_S1024x336_d1) hxs hy).result F (no_index (Proc.devRef .tc main_v76))
      = join3 S1024x336 1 (F (Proc.devRef .tc main_arg6) : S1024x256.Idx → EReal)
          (F (Proc.devRef .tc main_arg7) : S1024x64.Idx → EReal) (F (Proc.devRef .tc main_arg8) : S1024x16.Idx → EReal)
          concatenates_S1024x256_S1024x64_S1024x16_S1024x336_d1 := by
  rw [nary_result]; rfl

/-- The token ids, flattened. -/
def idsV : IVec S16384 32 :=
  shapeCast S16384 (m ((c.tc : Thread nD τ).loc main_arg0) : S8x2048.Idx → BitVec 32) shapeCasts_S8x2048_S16384

/-- Band 0's rows. -/
def rows0 : S16384x1024.Idx → EReal :=
  rowsV (R := 20000) (C := 1024) gather_S20000x1024_S16384x1_S16384x1024_1_0_n_n_0_1_11024_wf
    bcast_S16384_S16384x1_0 bcast_S16384x1_S16384x1024_0_1 bcast_S_S16384x1024 bitsLt_bf16_f32
    (maskV bcast_S_S16384 0#32 20000#32 (idsV m c)) (startV bcast_S_S16384 0#32 19999#32 20000#32 (idsV m c))
    (m ((c.tc : Thread nD τ).loc main_arg1) : S20000x1024.Idx → EReal)
/-- Band 1's rows. -/
def rows1 : S16384x256.Idx → EReal :=
  rowsV (R := 20000) (C := 256) gather_S20000x256_S16384x1_S16384x256_1_0_n_n_0_1_1256_wf
    bcast_S16384_S16384x1_0 bcast_S16384x1_S16384x256_0_1 bcast_S_S16384x256 bitsLt_bf16_f32
    (maskV bcast_S_S16384 20000#32 40000#32 (idsV m c)) (startV bcast_S_S16384 20000#32 19999#32 20000#32 (idsV m c))
    (m ((c.tc : Thread nD τ).loc main_arg2) : S20000x256.Idx → EReal)
/-- Band 2's rows. -/
def rows2 : S16384x64.Idx → EReal :=
  rowsV (R := 160000) (C := 64) gather_S160000x64_S16384x1_S16384x64_1_0_n_n_0_1_164_wf
    bcast_S16384_S16384x1_0 bcast_S16384x1_S16384x64_0_1 bcast_S_S16384x64 bitsLt_bf16_f32
    (maskV bcast_S_S16384 40000#32 200000#32 (idsV m c)) (startV bcast_S_S16384 40000#32 159999#32 160000#32 (idsV m c))
    (m ((c.tc : Thread nD τ).loc main_arg3) : S160000x64.Idx → EReal)
/-- Band 3's rows. -/
def rows3 : S16384x16.Idx → EReal :=
  rowsV (R := 67735) (C := 16) gather_S67735x16_S16384x1_S16384x16_1_0_n_n_0_1_116_wf
    bcast_S16384_S16384x1_0 bcast_S16384x1_S16384x16_0_1 bcast_S_S16384x16 bitsLt_bf16_f32
    (maskV bcast_S_S16384 200000#32 267735#32 (idsV m c)) (startV bcast_S_S16384 200000#32 67734#32 67735#32 (idsV m c))
    (m ((c.tc : Thread nD τ).loc main_arg4) : S67735x16.Idx → EReal)

set_option maxHeartbeats 1000000 in
/-- Band 0's projection, rounded. -/
theorem v75_eq :
    (V m c main_v75 : S1024x1024.Idx → EReal)
      = truncf (F := Ideal) .bf16 (m ((c.tc : Thread nD τ).loc main_arg5) : S1024x1024.Idx → EReal) bitsLt_bf16_f32 := by
  dsimp only [Frm.V, Frm.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  simp (disch := decide) only [after_cons, after_nil,
    nullary_result', unary_result', binary_result', ternary_result', reshape_result', v73_result, v76_result,
    nullary_result_ne', unary_result_ne', binary_result_ne', ternary_result_ne', reshape_result_ne', nary_result_ne']

set_option maxHeartbeats 1000000 in
/-- Bands 1, 2, 3's projections joined, padded with the converted integer zero, rounded. -/
theorem v78_eq :
    (V m c main_v78 : S1024x384.Idx → EReal)
      = truncf (F := Ideal) .bf16
          (pad S1024x384 ![0, 0] ![0, 48] ![0, 0]
            (join3 S1024x336 1
              (m ((c.tc : Thread nD τ).loc main_arg6) : S1024x256.Idx → EReal)
              (m ((c.tc : Thread nD τ).loc main_arg7) : S1024x64.Idx → EReal)
              (m ((c.tc : Thread nD τ).loc main_arg8) : S1024x16.Idx → EReal)
              concatenates_S1024x256_S1024x64_S1024x16_S1024x336_d1)
            (sitofp (F := Ideal) .f32 (constantI S_ 32 0#32)) pads_S1024x336_S1024x384_000_0480 h_S_) bitsLt_bf16_f32 := by
  dsimp only [Frm.V, Frm.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  simp (disch := decide) only [after_cons, after_nil,
    nullary_result', unary_result', binary_result', ternary_result', reshape_result', v73_result, v76_result,
    nullary_result_ne', unary_result_ne', binary_result_ne', ternary_result_ne', reshape_result_ne', nary_result_ne']
  rfl

set_option maxHeartbeats 1000000 in
/-- Band 0's rows. -/
theorem v18_eq : (V m c main_v18 : S16384x1024.Idx → EReal) = rows0 m c := by
  dsimp only [Frm.V, Frm.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  simp (disch := decide) only [after_cons, after_nil,
    nullary_result', unary_result', binary_result', ternary_result', reshape_result', v73_result, v76_result,
    nullary_result_ne', unary_result_ne', binary_result_ne', ternary_result_ne', reshape_result_ne', nary_result_ne']
  rfl

set_option maxHeartbeats 1000000 in
/-- Bands 1, 2, 3's rows joined and padded with the converted integer zero. -/
theorem v74_eq :
    (V m c main_v74 : S16384x384.Idx → EReal)
      = pad S16384x384 ![0, 0] ![0, 48] ![0, 0]
          (join3 S16384x336 1 (rows1 m c) (rows2 m c) (rows3 m c)
            concatenates_S16384x256_S16384x64_S16384x16_S16384x336_d1)
          (sitofp (F := Ideal) .bf16 (constantI S_ 32 0#32)) pads_S16384x336_S16384x384_000_0480 h_S_ := by
  dsimp only [Frm.V, Frm.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  simp (disch := decide) only [after_cons, after_nil,
    nullary_result', unary_result', binary_result', ternary_result', reshape_result', v73_result, v76_result,
    nullary_result_ne', unary_result_ne', binary_result_ne', ternary_result_ne', reshape_result_ne', nary_result_ne']
  rfl

end Cert.KernelIdeal.Prefix

end
-- ==== Proof.PrefixJoin.lean ====
/-
  Three arrays joined side by side and padded with zero columns, read at an entry.

  The arrays have `256`, `64` and `16` columns; joined they have `336`, and the padding adds `48` columns holding the
  padding value, for `384` in all. Column `j` of the result is column `j` of the first array for `j < 256`, column
  `j - 256` of the second for `256 ≤ j < 320`, column `j - 320` of the third for `320 ≤ j < 336`, and the padding value
  from there on. The padding value is the integer `0` converted to a float: the real number `0`.
-/
import Idealize.ShloMosaic.Lib.ValueIdx
import Idealize.ShloMosaic.Lib.Pipeline.Value
import Idealize.ShloMosaic.Lib.KernelVsHost
import Idealize.ShloMosaic.PureOps.Ideal.Laws

noncomputable section

namespace Cert.Emb.HostOps

open Idealize.ShloMosaic Idealize.ShloMosaic.ValueIdx

section Join
variable {α : Type} {N : Nat}
  (hc : Shape.Concatenates [(⟨2, ![N, 256]⟩ : Shape), ⟨2, ![N, 64]⟩, ⟨2, ![N, 16]⟩] ⟨2, ![N, 336]⟩ 1)
  (x1 : (⟨2, ![N, 256]⟩ : Shape).Idx → α) (x2 : (⟨2, ![N, 64]⟩ : Shape).Idx → α) (x3 : (⟨2, ![N, 16]⟩ : Shape).Idx → α)

/-- The joined array at a column below `256`: the first array. -/
theorem join_apply_1 (n : Fin N) (j : Fin 256) :
    concatenate ⟨2, ![N, 336]⟩ 1 [⟨⟨2, ![N, 256]⟩, x1⟩, ⟨⟨2, ![N, 64]⟩, x2⟩, ⟨⟨2, ![N, 16]⟩, x3⟩] hc
        (ix2 n (⟨j.val, by omega⟩ : Fin 336)) = x1 (ix2 n j) :=
  concatenate_apply_piece (t := ⟨2, ![N, 336]⟩) (1 : Fin 2)
    ([⟨⟨2, ![N, 256]⟩, x1⟩, ⟨⟨2, ![N, 64]⟩, x2⟩, ⟨⟨2, ![N, 16]⟩, x3⟩] : List ((s : Shape) × (s.Idx → α))) hc (ix2 n (⟨j.val, by omega⟩ : Fin 336)) 0 (by show 0 < 3; omega) ⟨2, ![N, 256]⟩ x1 rfl rfl
    0 rfl (ix2 n j)
    (fun b => match b with
      | ⟨0, _⟩ => fun _ => rfl
      | ⟨1, _⟩ => fun h => absurd rfl h)
    (by show 0 + j.val = j.val; omega)

/-- The joined array at a column `256 + j`, `j < 64`: the second array. -/
theorem join_apply_2 (n : Fin N) (j : Fin 64) :
    concatenate ⟨2, ![N, 336]⟩ 1 [⟨⟨2, ![N, 256]⟩, x1⟩, ⟨⟨2, ![N, 64]⟩, x2⟩, ⟨⟨2, ![N, 16]⟩, x3⟩] hc
        (ix2 n (⟨256 + j.val, by omega⟩ : Fin 336)) = x2 (ix2 n j) :=
  concatenate_apply_piece (t := ⟨2, ![N, 336]⟩) (1 : Fin 2)
    ([⟨⟨2, ![N, 256]⟩, x1⟩, ⟨⟨2, ![N, 64]⟩, x2⟩, ⟨⟨2, ![N, 16]⟩, x3⟩] : List ((s : Shape) × (s.Idx → α))) hc (ix2 n (⟨256 + j.val, by omega⟩ : Fin 336)) 1 (by show 1 < 3; omega) ⟨2, ![N, 64]⟩ x2 rfl rfl
    256 rfl (ix2 n j)
    (fun b => match b with
      | ⟨0, _⟩ => fun _ => rfl
      | ⟨1, _⟩ => fun h => absurd rfl h)
    (by show 256 + j.val = 256 + j.val; rfl)

/-- The joined array at a column `320 + j`, `j < 16`: the third array. -/
theorem join_apply_3 (n : Fin N) (j : Fin 16) :
    concatenate ⟨2, ![N, 336]⟩ 1 [⟨⟨2, ![N, 256]⟩, x1⟩, ⟨⟨2, ![N, 64]⟩, x2⟩, ⟨⟨2, ![N, 16]⟩, x3⟩] hc
        (ix2 n (⟨320 + j.val, by omega⟩ : Fin 336)) = x3 (ix2 n j) :=
  concatenate_apply_piece (t := ⟨2, ![N, 336]⟩) (1 : Fin 2)
    ([⟨⟨2, ![N, 256]⟩, x1⟩, ⟨⟨2, ![N, 64]⟩, x2⟩, ⟨⟨2, ![N, 16]⟩, x3⟩] : List ((s : Shape) × (s.Idx → α))) hc (ix2 n (⟨320 + j.val, by omega⟩ : Fin 336)) 2 (by show 2 < 3; omega) ⟨2, ![N, 16]⟩ x3 rfl rfl
    320 rfl (ix2 n j)
    (fun b => match b with
      | ⟨0, _⟩ => fun _ => rfl
      | ⟨1, _⟩ => fun h => absurd rfl h)
    (by show 320 + j.val = 320 + j.val; rfl)

end Join

section Pad
variable {α : Type} {N : Nat}
  (hp : (⟨2, ![N, 336]⟩ : Shape).Pads (![0, 0] : Fin 2 → Nat) ![0, 48] ![0, 0] ⟨2, ![N, 384]⟩)
  (hu : 0 < (⟨0, ![]⟩ : Shape).numel)
  (x : (⟨2, ![N, 336]⟩ : Shape).Idx → α) (v : (⟨0, ![]⟩ : Shape).Idx → α)

/-- The padded array at a column below `336`: the array itself. -/
theorem pad48_apply_inside (n : Fin N) (j : Fin 336) :
    pad ⟨2, ![N, 384]⟩ ![0, 0] ![0, 48] ![0, 0] x v hp hu (ix2 n (⟨j.val, by omega⟩ : Fin 384)) = x (ix2 n j) :=
  pad_apply_of_inside _ _ _ x v hp hu (ix2 n (⟨j.val, by omega⟩ : Fin 384)) (ix2 n j) (fun a => match a with
    | ⟨0, _⟩ => by show n.val = 0 + n.val * (0 + 1); omega
    | ⟨1, _⟩ => by show j.val = 0 + j.val * (0 + 1); omega)

/-- The padded array at a column `336 + j`: the padding value. -/
theorem pad48_apply_outside (n : Fin N) (j : Fin 48) :
    pad ⟨2, ![N, 384]⟩ ![0, 0] ![0, 48] ![0, 0] x v hp hu (ix2 n (⟨336 + j.val, by omega⟩ : Fin 384))
      = v (Shape.Idx.first hu) :=
  pad_apply_of_not_inside _ _ _ x v hp hu (ix2 n (⟨336 + j.val, by omega⟩ : Fin 384)) (1 : Fin 2) (by
    show ¬(0 ≤ 336 + j.val ∧ (336 + j.val - 0) % (0 + 1) = 0 ∧ (336 + j.val - 0) / (0 + 1) < 336)
    omega)

end Pad

/-- The integer `0` converted to a float is the real number `0`. -/
theorem sitofp_zero (φ : FTy) (i : (⟨0, ![]⟩ : Shape).Idx) :
    (sitofp (F := Ideal) φ (constantI ⟨0, ![]⟩ 32 0#32) : FVec Ideal ⟨0, ![]⟩ φ) i = (0 : EReal) := by
  show (((0#32 : BitVec 32).toInt : ℝ) : EReal) = 0
  simp

end Cert.Emb.HostOps

end
-- ==== Proof.PrefixValue.lean ====
/-
  The four arrays the region stages, read at an entry, as functions of the argument arrays.

  The host lines before the region flatten the `[8, 2048]` token ids to `[16384]`; for each band they form the band's
  mask, the clipped and wrapped row index, gather the rows, zero the rows of tokens outside the band and round to
  bf16 (the identity on extended reals). Band 0's rows are the first array; bands 1, 2, 3 side by side, then 48 zero
  columns, the second; the projections likewise: band 0's is the third array, bands 1, 2, 3 and 48 zero columns the
  fourth.
-/
import proofs.«143205_j19877108646485_2_alg».proof.Proof.EntryKernelIdeal
import proofs.«143205_j19877108646485_2_alg».proof.Proof.Spec
import Idealize.ShloMosaic.Lib.ValueIdx
import Idealize.ShloMosaic.PureOps.Ideal.Laws
import proofs.«143205_j19877108646485_2_alg».proof.Proof.PrefixTerms
import proofs.«143205_j19877108646485_2_alg».proof.Proof.PrefixJoin

noncomputable section

namespace Cert.KernelIdeal.Prefix

open Cert.KernelIdeal Cert.KernelIdeal.Gen Cert.KernelIdeal.Frm
open Idealize.ShloMosaic Idealize.ShloMosaic.TcCoe Idealize.ShloMosaic.ValueIdx Idealize.SL.Sem
open Cert.Emb.HostOps

variable (m : (ℓ : Loc nD τ sig) → Buf (Elt Ideal) ℓ) (c : Dev nD)

/-- The token at flat position `n`: entry `(n / 2048, n % 2048)` of the ids. -/
def tok (n : Fin 16384) : BitVec 32 :=
  (m ((c.tc : Thread nD τ).loc main_arg0) : S8x2048.Idx → BitVec 32) (ix2 (⟨n.val / 2048, by omega⟩ : Fin 8) (⟨n.val % 2048, by omega⟩ : Fin 2048))

/-- The float zero word both the masking and the padding write. -/
abbrev zeroW : EReal := Ideal.ofBits .f32 0x00000000#32

/-- The flattened ids at `n`: the token at flat position `n`. -/
theorem idsV_apply (n : Fin 16384) : idsV m c (ix1 n) = tok m c n :=
  flat_apply _ shapeCasts_S8x2048_S16384 n

/-- Band 0's rows: token `n`'s row of table 0, or zeros outside the band. -/
theorem e0_apply (n : Fin 16384) (k : Fin 1024) :
    (V m c main_v18 : S16384x1024.Idx → EReal) (ix2 n k)
      = Scalar.select (Emb.inBand 0#32 20000#32 (tok m c n))
          ((m ((c.tc : Thread nD τ).loc main_arg1) : S20000x1024.Idx → EReal)
            (ix2 (Emb.rowAt 20000 (by decide) (Emb.startIx 0#32 19999#32 20000#32 (tok m c n))) k)) zeroW := by
  refine (congrFun (v18_eq m c) (ix2 n k)).trans ?_
  unfold rows0
  rw [rowsV_apply (by decide : 0 < 20000), maskV_apply, startV_apply, idsV_apply]

/-- Columns 0 … 255 of the joined array: band 1's rows. -/
theorem e123_apply_1 (n : Fin 16384) (j : Fin 256) :
    (V m c main_v74 : S16384x384.Idx → EReal) (ix2 n (⟨j.val, by omega⟩ : Fin 384))
      = Scalar.select (Emb.inBand 20000#32 40000#32 (tok m c n))
          ((m ((c.tc : Thread nD τ).loc main_arg2) : S20000x256.Idx → EReal)
            (ix2 (Emb.rowAt 20000 (by decide) (Emb.startIx 20000#32 19999#32 20000#32 (tok m c n))) j)) zeroW := by
  refine (congrFun (v74_eq m c) _).trans ?_
  refine (pad48_apply_inside _ _ _ _ n (⟨j.val, by omega⟩ : Fin 336)).trans ?_
  unfold join3
  refine (join_apply_1 _ _ _ _ n j).trans ?_
  unfold rows1
  rw [rowsV_apply (by decide : 0 < 20000), maskV_apply, startV_apply, idsV_apply]

/-- Columns 256 … 319: band 2's rows. -/
theorem e123_apply_2 (n : Fin 16384) (j : Fin 64) :
    (V m c main_v74 : S16384x384.Idx → EReal) (ix2 n (⟨256 + j.val, by omega⟩ : Fin 384))
      = Scalar.select (Emb.inBand 40000#32 200000#32 (tok m c n))
          ((m ((c.tc : Thread nD τ).loc main_arg3) : S160000x64.Idx → EReal)
            (ix2 (Emb.rowAt 160000 (by decide) (Emb.startIx 40000#32 159999#32 160000#32 (tok m c n))) j)) zeroW := by
  refine (congrFun (v74_eq m c) _).trans ?_
  refine (pad48_apply_inside _ _ _ _ n (⟨256 + j.val, by omega⟩ : Fin 336)).trans ?_
  unfold join3
  refine (join_apply_2 _ _ _ _ n j).trans ?_
  unfold rows2
  rw [rowsV_apply (by decide : 0 < 160000), maskV_apply, startV_apply, idsV_apply]

/-- Columns 320 … 335: band 3's rows. -/
theorem e123_apply_3 (n : Fin 16384) (j : Fin 16) :
    (V m c main_v74 : S16384x384.Idx → EReal) (ix2 n (⟨320 + j.val, by omega⟩ : Fin 384))
      = Scalar.select (Emb.inBand 200000#32 267735#32 (tok m c n))
          ((m ((c.tc : Thread nD τ).loc main_arg4) : S67735x16.Idx → EReal)
            (ix2 (Emb.rowAt 67735 (by decide) (Emb.startIx 200000#32 67734#32 67735#32 (tok m c n))) j)) zeroW := by
  refine (congrFun (v74_eq m c) _).trans ?_
  refine (pad48_apply_inside _ _ _ _ n (⟨320 + j.val, by omega⟩ : Fin 336)).trans ?_
  unfold join3
  refine (join_apply_3 _ _ _ _ n j).trans ?_
  unfold rows3
  rw [rowsV_apply (by decide : 0 < 67735), maskV_apply, startV_apply, idsV_apply]

/-- Columns 336 … 383: the padding, zero. -/
theorem e123_apply_pad (n : Fin 16384) (j : Fin 48) :
    (V m c main_v74 : S16384x384.Idx → EReal) (ix2 n (⟨336 + j.val, by omega⟩ : Fin 384)) = (0 : EReal) := by
  refine (congrFun (v74_eq m c) _).trans ?_
  refine (pad48_apply_outside _ _ _ _ n j).trans ?_
  exact sitofp_zero .bf16 _

/-- Band 0's projection, as given. -/
theorem p0_apply (d : Fin 1024) (k : Fin 1024) :
    (V m c main_v75 : S1024x1024.Idx → EReal) (ix2 d k)
      = (m ((c.tc : Thread nD τ).loc main_arg5) : S1024x1024.Idx → EReal) (ix2 d k) := by
  refine (congrFun (v75_eq m c) (ix2 d k)).trans ?_
  exact truncf_apply (φ := .f32) (ψ := .bf16) _ bitsLt_bf16_f32 _

/-- The joined projections: columns 0 … 255 band 1's, -/
theorem p123_apply_1 (d : Fin 1024) (j : Fin 256) :
    (V m c main_v78 : S1024x384.Idx → EReal) (ix2 d (⟨j.val, by omega⟩ : Fin 384))
      = (m ((c.tc : Thread nD τ).loc main_arg6) : S1024x256.Idx → EReal) (ix2 d j) := by
  refine (congrFun (v78_eq m c) _).trans ?_
  refine (truncf_apply (φ := .f32) (ψ := .bf16) _ bitsLt_bf16_f32 _).trans ?_
  refine (pad48_apply_inside _ _ _ _ d (⟨j.val, by omega⟩ : Fin 336)).trans ?_
  unfold join3
  exact join_apply_1 _ _ _ _ d j
/-- columns 256 … 319 band 2's, -/
theorem p123_apply_2 (d : Fin 1024) (j : Fin 64) :
    (V m c main_v78 : S1024x384.Idx → EReal) (ix2 d (⟨256 + j.val, by omega⟩ : Fin 384))
      = (m ((c.tc : Thread nD τ).loc main_arg7) : S1024x64.Idx → EReal) (ix2 d j) := by
  refine (congrFun (v78_eq m c) _).trans ?_
  refine (truncf_apply (φ := .f32) (ψ := .bf16) _ bitsLt_bf16_f32 _).trans ?_
  refine (pad48_apply_inside _ _ _ _ d (⟨256 + j.val, by omega⟩ : Fin 336)).trans ?_
  unfold join3
  exact join_apply_2 _ _ _ _ d j
/-- columns 320 … 335 band 3's, -/
theorem p123_apply_3 (d : Fin 1024) (j : Fin 16) :
    (V m c main_v78 : S1024x384.Idx → EReal) (ix2 d (⟨320 + j.val, by omega⟩ : Fin 384))
      = (m ((c.tc : Thread nD τ).loc main_arg8) : S1024x16.Idx → EReal) (ix2 d j) := by
  refine (congrFun (v78_eq m c) _).trans ?_
  refine (truncf_apply (φ := .f32) (ψ := .bf16) _ bitsLt_bf16_f32 _).trans ?_
  refine (pad48_apply_inside _ _ _ _ d (⟨320 + j.val, by omega⟩ : Fin 336)).trans ?_
  unfold join3
  exact join_apply_3 _ _ _ _ d j
/-- and columns 336 … 383 zero. -/
theorem p123_apply_pad (d : Fin 1024) (j : Fin 48) :
    (V m c main_v78 : S1024x384.Idx → EReal) (ix2 d (⟨336 + j.val, by omega⟩ : Fin 384)) = (0 : EReal) := by
  refine (congrFun (v78_eq m c) _).trans ?_
  refine (truncf_apply (φ := .f32) (ψ := .bf16) _ bitsLt_bf16_f32 _).trans ?_
  refine (pad48_apply_outside _ _ _ _ d j).trans ?_
  exact sitofp_zero .f32 _

end Cert.KernelIdeal.Prefix

end
-- ==== Proof.SumLaws.lean ====
/-
  Two laws of sums on the extended reals that join the kernel's arrangement to the reference's.

  (1) Masking a row before a dot product is masking the dot product: if every entry of a row is replaced by zero when
      a bit is off, the row's product with any other row is the original product when the bit is on and zero when it
      is off. On the extended reals `0 · x = 0` for EVERY `x`, infinite ones included, so no finiteness is needed.
  (2) A sum over 384 columns is the sum over columns 0 … 255, plus 256 … 319, plus 320 … 335, plus 336 … 383: the three
      narrow tables laid side by side and the padding.
-/
import Idealize.ShloMosaic.PureOps.Ideal
import Idealize.ShloMosaic.Lib.ValueIdx
import Idealize.ShloMosaic.Lib.IdealHost
import Mathlib.Algebra.BigOperators.Fin

noncomputable section

namespace Cert.Emb

open Idealize.ShloMosaic

/-- The float zero word is the extended real zero. -/
theorem zeroWord : Ideal.ofBits .f32 0x00000000#32 = (0 : EReal) := Ideal.ofBits_zero_f32

/-- (1) A row masked entry by entry, dotted with another row. -/
theorem sum_select_mul {C : Nat} (b : BitVec 1) (e p : Fin C → EReal) :
    ∑ k : Fin C, Scalar.select b (e k) (Ideal.ofBits .f32 0x00000000#32) * p k
      = Scalar.select b (∑ k : Fin C, e k * p k) 0 := by
  unfold Scalar.select
  by_cases h : b = 1
  · simp only [if_pos h]
  · simp only [if_neg h, zeroWord, zero_mul, Finset.sum_const_zero]

/-- (2) 384 = 256 + 64 + 16 + 48. -/
theorem sum_split384 {M : Type*} [AddCommMonoid M] (f : Fin 384 → M) :
    ∑ j : Fin 384, f j
      = (∑ j : Fin 256, f ⟨j.val, by omega⟩) + (∑ j : Fin 64, f ⟨256 + j.val, by omega⟩)
        + (∑ j : Fin 16, f ⟨320 + j.val, by omega⟩) + (∑ j : Fin 48, f ⟨336 + j.val, by omega⟩) := by
  have h1 : ∑ j : Fin 384, f j
      = (∑ j : Fin 336, f ⟨j.val, by omega⟩) + ∑ j : Fin 48, f ⟨336 + j.val, by omega⟩ :=
    Fin.sum_univ_add (a := 336) (b := 48) f
  have h2 : ∑ j : Fin 336, f ⟨j.val, by omega⟩
      = (∑ j : Fin 320, f ⟨j.val, by omega⟩) + ∑ j : Fin 16, f ⟨320 + j.val, by omega⟩ :=
    Fin.sum_univ_add (a := 320) (b := 16) (fun j : Fin 336 => f ⟨j.val, by omega⟩)
  have h3 : ∑ j : Fin 320, f ⟨j.val, by omega⟩
      = (∑ j : Fin 256, f ⟨j.val, by omega⟩) + ∑ j : Fin 64, f ⟨256 + j.val, by omega⟩ :=
    Fin.sum_univ_add (a := 256) (b := 64) (fun j : Fin 320 => f ⟨j.val, by omega⟩)
  rw [h1, h2, h3]

end Cert.Emb

end
-- ==== Proof.KernelValue.lean ====
/-
  The region's result is the embedding of Spec.lean.

  At token `n = 2048 b + s` and feature `d` the region leaves
      (∑ k, e0 (n, k) · p0 (d, k)  +  ∑ j, e123 (n, j) · p123 (d, j)) · 32.
  The second sum runs over the three narrow bands laid side by side and 48 columns of padding: it splits into band 1's,
  band 2's and band 3's sums and a sum of zeros. Each band's rows were masked before the product; a masked row's
  product is the masked product. What is left is the four bands' contributions of token `ids (b, s)`, added, times 32.
-/
import proofs.«143205_j19877108646485_2_alg».proof.Proof.ArrValue
import proofs.«143205_j19877108646485_2_alg».proof.Proof.PrefixValue
import proofs.«143205_j19877108646485_2_alg».proof.Proof.SumLaws
import proofs.«143205_j19877108646485_2_alg».proof.Proof.Spec

noncomputable section

namespace Cert.KernelIdeal.Res

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ) (c : Dev nD)

/-- The flat position of token `(b, s)`. -/
def flat (b : Fin 8) (s : Fin 2048) : Fin 16384 := ⟨b.val * 2048 + s.val, by omega⟩

/-- The token at that flat position is `ids (b, s)`. -/
theorem tok_flat (b : Fin 8) (s : Fin 2048) :
    Prefix.tok m c (flat b s) = (m ((c.tc : Thread nD τ).loc main_arg0) : S8x2048.Idx → BitVec 32) (ix2 b s) := by
  unfold Prefix.tok
  have h0 : (flat b s).val / 2048 = b.val := by show (b.val * 2048 + s.val) / 2048 = b.val; omega
  have h1 : (flat b s).val % 2048 = s.val := by show (b.val * 2048 + s.val) % 2048 = s.val; omega
  exact congrArg _ (congrArg₂ ix2 (Fin.ext h0) (Fin.ext h1))

/-- The staged arrays read at an entry (the host lines before the region, read back). -/
theorem aE0_apply (n : Fin 16384) (k : Fin 1024) :
    Arr.aE0 m c (ix2 n k)
      = Scalar.select (Emb.inBand 0#32 20000#32 (Prefix.tok m c n))
          (((m ((c.tc : Thread nD τ).loc main_arg1)) : S20000x1024.Idx → EReal)
            (ix2 (Emb.rowAt 20000 (by decide) (Emb.startIx 0#32 19999#32 20000#32 (Prefix.tok m c n))) k)) (Ideal.ofBits .f32 0x00000000#32) :=
  Prefix.e0_apply m c n k
theorem aE123_apply_1 (n : Fin 16384) (j : Fin 256) :
    Arr.aE123 m c (ix2 n (⟨j.val, by omega⟩ : Fin 384))
      = Scalar.select (Emb.inBand 20000#32 40000#32 (Prefix.tok m c n))
          (((m ((c.tc : Thread nD τ).loc main_arg2)) : S20000x256.Idx → EReal)
            (ix2 (Emb.rowAt 20000 (by decide) (Emb.startIx 20000#32 19999#32 20000#32 (Prefix.tok m c n))) j)) (Ideal.ofBits .f32 0x00000000#32) :=
  Prefix.e123_apply_1 m c n j
theorem aE123_apply_2 (n : Fin 16384) (j : Fin 64) :
    Arr.aE123 m c (ix2 n (⟨256 + j.val, by omega⟩ : Fin 384))
      = Scalar.select (Emb.inBand 40000#32 200000#32 (Prefix.tok m c n))
          (((m ((c.tc : Thread nD τ).loc main_arg3)) : S160000x64.Idx → EReal)
            (ix2 (Emb.rowAt 160000 (by decide) (Emb.startIx 40000#32 159999#32 160000#32 (Prefix.tok m c n))) j)) (Ideal.ofBits .f32 0x00000000#32) :=
  Prefix.e123_apply_2 m c n j
theorem aE123_apply_3 (n : Fin 16384) (j : Fin 16) :
    Arr.aE123 m c (ix2 n (⟨320 + j.val, by omega⟩ : Fin 384))
      = Scalar.select (Emb.inBand 200000#32 267735#32 (Prefix.tok m c n))
          (((m ((c.tc : Thread nD τ).loc main_arg4)) : S67735x16.Idx → EReal)
            (ix2 (Emb.rowAt 67735 (by decide) (Emb.startIx 200000#32 67734#32 67735#32 (Prefix.tok m c n))) j)) (Ideal.ofBits .f32 0x00000000#32) :=
  Prefix.e123_apply_3 m c n j
theorem aE123_apply_pad (n : Fin 16384) (j : Fin 48) :
    Arr.aE123 m c (ix2 n (⟨336 + j.val, by omega⟩ : Fin 384)) = 0 := Prefix.e123_apply_pad m c n j
theorem aP0_apply (d : Fin 1024) (k : Fin 1024) :
    Arr.aP0 m c (ix2 d k) = ((m ((c.tc : Thread nD τ).loc main_arg5)) : S1024x1024.Idx → EReal) (ix2 d k) := Prefix.p0_apply m c d k
theorem aP123_apply_1 (d : Fin 1024) (j : Fin 256) :
    Arr.aP123 m c (ix2 d (⟨j.val, by omega⟩ : Fin 384)) = ((m ((c.tc : Thread nD τ).loc main_arg6)) : S1024x256.Idx → EReal) (ix2 d j) := Prefix.p123_apply_1 m c d j
theorem aP123_apply_2 (d : Fin 1024) (j : Fin 64) :
    Arr.aP123 m c (ix2 d (⟨256 + j.val, by omega⟩ : Fin 384)) = ((m ((c.tc : Thread nD τ).loc main_arg7)) : S1024x64.Idx → EReal) (ix2 d j) := Prefix.p123_apply_2 m c d j
theorem aP123_apply_3 (d : Fin 1024) (j : Fin 16) :
    Arr.aP123 m c (ix2 d (⟨320 + j.val, by omega⟩ : Fin 384)) = ((m ((c.tc : Thread nD τ).loc main_arg8)) : S1024x16.Idx → EReal) (ix2 d j) := Prefix.p123_apply_3 m c d j
theorem aP123_apply_pad (d : Fin 1024) (j : Fin 48) :
    Arr.aP123 m c (ix2 d (⟨336 + j.val, by omega⟩ : Fin 384)) = 0 := Prefix.p123_apply_pad m c d j

/-- THE REGION'S RESULT at token `(b, s)` and feature `d` is the specification's entry `(b, s, d)`. -/
theorem H_eq (b : Fin 8) (s : Fin 2048) (d : Fin 1024) :
    Arr.H m c (flat b s) d
      = Cert.Emb.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (ix3 b s d) := by
  unfold Arr.H
  rw [Cert.Emb.sum_split384]
  simp only [aE0_apply, aP0_apply, aE123_apply_1, aE123_apply_2, aE123_apply_3, aE123_apply_pad,
    aP123_apply_1, aP123_apply_2, aP123_apply_3, aP123_apply_pad, tok_flat]
  rw [Cert.Emb.sum_select_mul, Cert.Emb.sum_select_mul, Cert.Emb.sum_select_mul, Cert.Emb.sum_select_mul]
  simp only [mul_zero, Finset.sum_const_zero, add_zero]
  unfold Cert.Emb.G Cert.Emb.band0 Cert.Emb.band1 Cert.Emb.band2 Cert.Emb.band3 Cert.Emb.band Cert.Emb.scale
  rw [← add_assoc, ← add_assoc]

end Cert.KernelIdeal.Res

end
-- ==== Proof.KernelRun.lean ====
/-
  The idealized kernel's run, with its result named.

  After the region one reshape lays the `[16384, 1024]` result out as `[8, 2048, 1024]`: entry `(b, s, d)` is the
  region's result at token `2048 b + s` and feature `d`, which is the specification's entry `(b, s, d)`. So every
  weakly fair execution ends with the result array at the specification's function of the argument arrays, and the
  argument arrays as launched.
-/
import proofs.«143205_j19877108646485_2_alg».proof.Proof.KernelValue
import Idealize.ShloMosaic.Lib.StableHlo.Run

noncomputable section

namespace Cert.KernelIdeal.Res

open Cert.KernelIdeal Cert.KernelIdeal.Gen Cert.KernelIdeal.Frm
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- What the reshape after the region leaves in the result buffer: the region's result array, reshaped. -/
theorem tail_eq : Pipeline.afterTail₀ cfgs (dats m) 0 (V0 m) [hostOps1] c main_v80
    = (shapeCast S8x2048x1024 (Arr.Harr m c) shapeCasts_S16384x1024_S8x2048x1024 : S8x2048x1024.Idx → EReal) := by
  unfold Pipeline.afterTail₀
  show StableHlo.after hostOps1 _ (Proc.devRef .tc main_v80) = _
  after_results
  have e : Pipeline.withArrays (cfgs 0).spec c (V0 m c) (fun w => (dats m 0 c).arrAt w (cfgs 0).N) (Proc.devRef .tc main_v79)
      = Arr.Harr m c :=
    (Pipeline.withArrays_arr spec0 launch0.win.arr_inj c _ _ 4).trans (Arr.final m c)
  rw [e]
  rfl

/-- Its entry `(b, s, d)` is the region's result at token `2048 b + s` and feature `d`. -/
theorem result_apply (b : Fin 8) (s : Fin 2048) (d : Fin 1024) :
    (Pipeline.afterTail₀ cfgs (dats m) 0 (V0 m) [hostOps1] c main_v80 : S8x2048x1024.Idx → EReal) (ix3 b s d)
      = Arr.H m c (flat b s) d := by
  rw [tail_eq]
  refine (shapeCast_apply (Arr.Harr m c) shapeCasts_S16384x1024_S8x2048x1024 (ix3 b s d) (ix2 (flat b s) d) ?_).trans rfl
  rw [Shape.rowMajor_val_two, Shape.rowMajor_val_three]
  rfl

/-- THE RESULT is the specification's function of the argument arrays. -/
theorem result_eq : Pipeline.afterTail₀ cfgs (dats m) 0 (V0 m) [hostOps1] c main_v80
    = Cert.Emb.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨b, s, d, rfl⟩ : ∃ (b : Fin 8) (s : Fin 2048) (d : Fin 1024), i = ix3 b s d := ⟨i 0, i 1, i 2, eq_ix3 i⟩
  exact (result_apply m c b s d).trans (H_eq m c b s d)

/-- THE RUN: the result at the specification, the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v80) = Cert.Emb.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).2 main_v80 (Pipeline.mem_restRefs_of main_v80 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.Res

end
-- ==== Proof.LibGatherRows3.lean ====
/-
  A `stablehlo.gather` of whole rows at a two-axis batch of start indices, read at an index.

  `x[idx]` for a matrix `x : [R, C]` and an integer array `idx : [B, S]` lowers to a gather whose start indices are
  the array `[B, S, 1]`, with offset axis 2, collapsed operand axis 0, start index map `[0]`, the index vector on
  axis 2 and slices of one whole row, `[1, C]`. Entry `(b, s, j)` of the result is the operand's entry
  `(r b s, j)`, where the row `r b s` is the start index `idx[b, s, 0]` read as a signed integer and clamped into
  `[0, R - 1]`. The row depends on the start indices and on `(b, s)` alone: not on the operand and not on the
  column `j`. So gathering rows commutes with any map that acts on each row by itself.
-/
import Idealize.ShloMosaic.Lib.ValueIdx

noncomputable section

namespace Idealize.ShloMosaic.GatherRows3

open Idealize.ShloMosaic Idealize.ShloMosaic.ValueIdx

/-- The dimension numbers of a row gather over a two-axis batch: operand `[R, C]`, start indices `[B, S, 1]`,
    result `[B, S, C]`. -/
abbrev rowsDims (R C B S : Nat)
    (wf : GatherDims.WF ⟨2, ![R, C]⟩ ⟨3, ![B, S, 1]⟩ ⟨3, ![B, S, C]⟩ [2] [0] [] [0] [] 2 ![1, C]) :
    GatherDims ⟨2, ![R, C]⟩ ⟨3, ![B, S, 1]⟩ ⟨3, ![B, S, C]⟩ where
  offsetDims := [2]
  collapsedSliceDims := [0]
  operandBatchingDims := []
  startIndicesBatchingDims := []
  startIndexMap := [0]
  indexVectorDim := 2
  sliceSizes := ![1, C]
  wf := wf

/-- The row that result rows `(b, s, ·)` read: the start index `idx[b, s, 0]`, signed, clamped into `[0, R - 1]`. -/
def rowOf {R B S w : Nat} (hR : 0 < R) (idx : IVec ⟨3, ![B, S, 1]⟩ w) (b : Fin B) (s : Fin S) : Fin R :=
  ⟨min (idx (ix3 b s (0 : Fin 1))).toInt.toNat (R - 1), by omega⟩

/-- On the row axis the operand index is the clamped start index: no batching coordinate, and no offset coordinate
    because the row axis is collapsed. -/
theorem operandIdx_rows_0 {R C B S w : Nat} (hR : 0 < R)
    (wf : GatherDims.WF ⟨2, ![R, C]⟩ ⟨3, ![B, S, 1]⟩ ⟨3, ![B, S, C]⟩ [2] [0] [] [0] [] 2 ![1, C])
    (idx : IVec ⟨3, ![B, S, 1]⟩ w) (b : Fin B) (s : Fin S) (j : Fin C) :
    ((rowsDims R C B S wf).operandIdx (ix3 b s j) idx (0 : Fin 2)).val = (rowOf hR idx b s).val := by
  show (rowsDims R C B S wf).start (ix3 b s j) idx (0 : Fin 2) + (rowsDims R C B S wf).batchCoord (ix3 b s j) (0 : Fin 2)
      + (rowsDims R C B S wf).offCoord (ix3 b s j) (0 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims R C B S wf).startIndexMap from List.mem_singleton.mpr rfl)]
  have hsi : (rowsDims R C B S wf).siIdx (ix3 b s j) ⟨List.idxOf (0 : Fin 2) (rowsDims R C B S wf).startIndexMap,
      List.idxOf_lt_length_iff.2 (List.mem_singleton.mpr rfl)⟩ = ix3 b s (0 : Fin 1) := by
    funext a; refine Fin.ext ?_
    match a with
    | ⟨0, _⟩ => rfl
    | ⟨1, _⟩ => rfl
    | ⟨2, _⟩ => rfl
  rw [hsi]
  rfl

/-- On the column axis the operand index is the result's column: the start index map does not name the axis, and it is
    the one offset axis. -/
theorem operandIdx_rows_1 {R C B S w : Nat}
    (wf : GatherDims.WF ⟨2, ![R, C]⟩ ⟨3, ![B, S, 1]⟩ ⟨3, ![B, S, C]⟩ [2] [0] [] [0] [] 2 ![1, C])
    (idx : IVec ⟨3, ![B, S, 1]⟩ w) (b : Fin B) (s : Fin S) (j : Fin C) :
    ((rowsDims R C B S wf).operandIdx (ix3 b s j) idx (1 : Fin 2)).val = j.val := by
  show (rowsDims R C B S wf).start (ix3 b s j) idx (1 : Fin 2) + (rowsDims R C B S wf).batchCoord (ix3 b s j) (1 : Fin 2)
      + (rowsDims R C B S wf).offCoord (ix3 b s j) (1 : Fin 2) = _
  have hs : (rowsDims R C B S wf).start (ix3 b s j) idx (1 : Fin 2) = 0 := by
    unfold GatherDims.start
    rw [dif_neg (show ¬ (1 : Fin 2) ∈ ([0] : List (Fin 2)) by decide)]
  have hk : (1 : Fin 2) ∈ (rowsDims R C B S wf).sKept :=
    (GatherDims.mem_sKept _ _).mpr ⟨(show ¬ (1 : Fin 2) ∈ ([0] : List (Fin 2)) by decide), List.not_mem_nil⟩
  rw [GatherDims.batchCoord_eq_zero _ _ _ List.not_mem_nil, Nat.add_zero, hs, Nat.zero_add]
  unfold GatherDims.offCoord
  rw [dif_pos hk]
  rfl

/-- The operand index of result entry `(b, s, j)` is `(rowOf b s, j)`. -/
theorem operandIdx_rows {R C B S w : Nat} (hR : 0 < R)
    (wf : GatherDims.WF ⟨2, ![R, C]⟩ ⟨3, ![B, S, 1]⟩ ⟨3, ![B, S, C]⟩ [2] [0] [] [0] [] 2 ![1, C])
    (idx : IVec ⟨3, ![B, S, 1]⟩ w) (b : Fin B) (s : Fin S) (j : Fin C) :
    (rowsDims R C B S wf).operandIdx (ix3 b s j) idx = ix2 (rowOf hR idx b s) j := by
  funext a
  refine Fin.ext ?_
  match a with
  | ⟨0, _⟩ => exact operandIdx_rows_0 hR wf idx b s j
  | ⟨1, _⟩ => exact operandIdx_rows_1 wf idx b s j

/-- THE ROW GATHER READ AT `(b, s, j)`: the operand's entry `(rowOf b s, j)`. -/
theorem gather_rows_apply {α : Type} {R C B S w : Nat} (hR : 0 < R)
    (wf : GatherDims.WF ⟨2, ![R, C]⟩ ⟨3, ![B, S, 1]⟩ ⟨3, ![B, S, C]⟩ [2] [0] [] [0] [] 2 ![1, C])
    (x : (⟨2, ![R, C]⟩ : Shape).Idx → α) (idx : IVec ⟨3, ![B, S, 1]⟩ w) (b : Fin B) (s : Fin S) (j : Fin C) :
    Host.gather (rowsDims R C B S wf) x idx (ix3 b s j) = x (ix2 (rowOf hR idx b s) j) := by
  unfold Host.gather
  rw [operandIdx_rows hR wf idx b s j]

/-- Gathering rows commutes with a map that acts row by row: if `y`'s entry `(r, j)` is `f` of `x`'s row `r` (and of
    `j`), then the gather of `y` at `(b, s, j)` is `f` of the gathered row `(b, s)` of `x`. -/
theorem gather_rows_rowwise {α β : Type} {R C B S w : Nat} (hR : 0 < R)
    (wf : GatherDims.WF ⟨2, ![R, C]⟩ ⟨3, ![B, S, 1]⟩ ⟨3, ![B, S, C]⟩ [2] [0] [] [0] [] 2 ![1, C])
    (f : (Fin C → α) → Fin C → β) (x : (⟨2, ![R, C]⟩ : Shape).Idx → α) (y : (⟨2, ![R, C]⟩ : Shape).Idx → β)
    (hy : ∀ (r : Fin R) (j : Fin C), y (ix2 r j) = f (fun k => x (ix2 r k)) j)
    (idx : IVec ⟨3, ![B, S, 1]⟩ w) (b : Fin B) (s : Fin S) (j : Fin C) :
    Host.gather (rowsDims R C B S wf) y idx (ix3 b s j)
      = f (fun k => Host.gather (rowsDims R C B S wf) x idx (ix3 b s k)) j := by
  rw [gather_rows_apply hR wf y idx b s j, hy]
  exact congrArg (fun g => f g j) (funext fun k => (gather_rows_apply hR wf x idx b s k).symm)

end Idealize.ShloMosaic.GatherRows3

end
-- ==== Proof.RefBands.lean ====
/-
  The reference's four bands, index by index.

  For each band the reference computes the mask `(ids >= lo) & (ids < hi)`, the start index `ids - lo` clipped into
  `[0, R - 1]` and wrapped, gathers the band's table rows there, contracts them with the band's projection, and keeps
  the product where the mask holds and zero elsewhere. Read at `(b, s, d)`: the mask and the start index depend on
  the token `ids (b, s)` alone and are spelt with the scalar operations of Spec.lean; the gather reads the row that
  start index names (clamped once more); the contraction is the sum over the row. So the band's last stage at
  `(b, s, d)` is `Cert.Emb.band_i` of the token at feature `d`.
-/
import proofs.«143205_j19877108646485_2_alg».proof.Proof.RefRead
import proofs.«143205_j19877108646485_2_alg».proof.Proof.Spec
import proofs.«143205_j19877108646485_2_alg».proof.Proof.LibGatherRows3
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## The first band: tokens in `[0, 20000)`, a table of 20000 rows of width 1024 -/

/-- The start index of the first band at token `(b, s)`: `ids - 0` clipped into `[0, 19999]`, a negative one
    wrapped by `20000` — the same scalar operations, in the same order, as `Cert.Emb.startIx`. -/
theorem start0 (x0 : (⟨S8x2048, .i32⟩ : BufTy).Contents (Elt Ideal)) (b : Fin 8) (s : Fin 2048) :
    val_main_v13 (F := Ideal) x0 (ix2 b s) = Cert.Emb.startIx 0#32 19999#32 20000#32 (x0 (ix2 b s)) := by
  simp only [val_main_v13_apply, val_main_v10_apply, val_main_v12_apply, val_main_v8_apply, val_main_call0_v4_apply,
    val_main_call0_v3_apply, val_main_c_3_apply, val_main_call0_v2_apply, val_main_call0_v1_apply,
    val_main_call0_v0_apply, val_main_c_2_apply, val_main_v7_apply, val_main_v6_apply, val_main_c_1_apply,
    val_main_v9_apply, val_main_c_4_apply, val_main_v11_apply, val_main_c_5_apply]
  rfl

/-- The mask of the first band at `(b, s, d)`: the bit "token `(b, s)` lies in `[0, 20000)`", whatever `d`. -/
theorem mask0 (x0 : (⟨S8x2048, .i32⟩ : BufTy).Contents (Elt Ideal)) (b : Fin 8) (s : Fin 2048) (d : Fin 1024) :
    val_main_call1_v1 (F := Ideal) x0 (ix3 b s d) = Cert.Emb.inBand 0#32 20000#32 (x0 (ix2 b s)) := by
  have e : idx_main_v17 (idx_main_call1_v1 (ix3 b s d)) = ix2 b s :=
    funext fun a => Fin.ext (by match a with | ⟨0, _⟩ => rfl | ⟨1, _⟩ => rfl)
  rw [val_main_call1_v1_apply, val_main_v17_apply, e]
  simp only [val_main_v5_apply, val_main_v2_apply, val_main_v4_apply, val_main_v1_apply, val_main_v3_apply,
    val_main_c_apply, val_main_c_0_apply]
  rfl

/-- The row of the first table that the gather reads at token `(b, s)` is the row `Cert.Emb.rowAt` names at the
    band's start index: the start indices are the band's start index placed on a trailing axis of size one. -/
theorem row0 (x0 : (⟨S8x2048, .i32⟩ : BufTy).Contents (Elt Ideal)) (b : Fin 8) (s : Fin 2048) :
    GatherRows3.rowOf (R := 20000) (by decide) (val_main_v14 (F := Ideal) x0) b s = Cert.Emb.rowAt 20000 (by decide) (Cert.Emb.startIx 0#32 19999#32 20000#32 (x0 (ix2 b s))) := by
  have e : idx_main_v14 (ix3 b s (0 : Fin 1)) = ix2 b s :=
    funext fun a => Fin.ext (by match a with | ⟨0, _⟩ => rfl | ⟨1, _⟩ => rfl)
  apply Fin.ext
  show min (val_main_v14 (F := Ideal) x0 (ix3 b s (0 : Fin 1))).toInt.toNat (20000 - 1)
    = min (Cert.Emb.startIx 0#32 19999#32 20000#32 (x0 (ix2 b s))).toInt.toNat (20000 - 1)
  rw [val_main_v14_apply, e, start0]

/-- The gathered rows of the first table at `(b, s, k)`: entry `k` of the row the start index names. -/
theorem gather0 (x0 : (⟨S8x2048, .i32⟩ : BufTy).Contents (Elt Ideal)) (x1 : (⟨S20000x1024, .f32⟩ : BufTy).Contents (Elt Ideal))
    (b : Fin 8) (s : Fin 2048) (k : Fin 1024) :
    val_main_v15 (F := Ideal) x0 x1 (ix3 b s k) = x1 (ix2 (Cert.Emb.rowAt 20000 (by decide) (Cert.Emb.startIx 0#32 19999#32 20000#32 (x0 (ix2 b s)))) k) := by
  rw [← row0]
  exact GatherRows3.gather_rows_apply (R := 20000) (C := 1024) (B := 8) (S := 2048) (by decide)
    gather_S20000x1024_S8x2048x1_S8x2048x1024_2_0_n_n_0_2_11024.wf x1 (val_main_v14 (F := Ideal) x0) b s k

/-- The contraction of the first band at `(b, s, d)`: the gathered row dotted with row `d` of the projection. -/
theorem dot0 (x0 : (⟨S8x2048, .i32⟩ : BufTy).Contents (Elt Ideal)) (x1 : (⟨S20000x1024, .f32⟩ : BufTy).Contents (Elt Ideal))
    (x5 : (⟨S1024x1024, .f32⟩ : BufTy).Contents (Elt Ideal)) (b : Fin 8) (s : Fin 2048) (d : Fin 1024) :
    val_main_v16 (F := Ideal) x0 x1 x5 (ix3 b s d)
      = ∑ k : Fin 1024, x1 (ix2 (Cert.Emb.rowAt 20000 (by decide) (Cert.Emb.startIx 0#32 19999#32 20000#32 (x0 (ix2 b s)))) k) * x5 (ix2 d k) := by
  rw [val_main_v16_apply]
  refine Finset.sum_congr rfl fun k _ => ?_
  have el : lidx_main_v16 (ix3 b s d) k = ix3 b s k :=
    funext fun a => Fin.ext (by match a with | ⟨0, _⟩ => rfl | ⟨1, _⟩ => rfl | ⟨2, _⟩ => rfl)
  have er : ridx_main_v16 (ix3 b s d) k = ix2 d k :=
    funext fun a => Fin.ext (by match a with | ⟨0, _⟩ => rfl | ⟨1, _⟩ => rfl)
  rw [el, er, gather0]

/-- THE FIRST BAND at `(b, s, d)`: the contraction where the token lies in the band, zero elsewhere. -/
theorem band0_eq (x0 : (⟨S8x2048, .i32⟩ : BufTy).Contents (Elt Ideal)) (x1 : (⟨S20000x1024, .f32⟩ : BufTy).Contents (Elt Ideal))
    (x5 : (⟨S1024x1024, .f32⟩ : BufTy).Contents (Elt Ideal)) (b : Fin 8) (s : Fin 2048) (d : Fin 1024) :
    val_main_v18 (F := Ideal) x0 x1 x5 (ix3 b s d) = Cert.Emb.band0 x1 x5 (x0 (ix2 b s)) d := by
  rw [val_main_v18_apply, mask0, dot0, val_main_call1_v2_apply, val_main_call1_v0_apply, val_main_cst_6_apply,
    Ideal.ofBits_def, Ideal.ofBits_zero_f32]
  rfl

/-! ## The second band: tokens in `[20000, 40000)`, a table of 20000 rows of width 256 -/

/-- The start index of the second band at token `(b, s)`: `ids - 20000` clipped into `[0, 19999]`, a negative one
    wrapped by `20000` — the same scalar operations, in the same order, as `Cert.Emb.startIx`. -/
theorem start1 (x0 : (⟨S8x2048, .i32⟩ : BufTy).Contents (Elt Ideal)) (b : Fin 8) (s : Fin 2048) :
    val_main_v32 (F := Ideal) x0 (ix2 b s) = Cert.Emb.startIx 20000#32 19999#32 20000#32 (x0 (ix2 b s)) := by
  simp only [val_main_v32_apply, val_main_v29_apply, val_main_v31_apply, val_main_v27_apply, val_main_call2_v4_apply,
    val_main_call2_v3_apply, val_main_c_11_apply, val_main_call2_v2_apply, val_main_call2_v1_apply,
    val_main_call2_v0_apply, val_main_c_10_apply, val_main_v26_apply, val_main_v25_apply, val_main_c_9_apply,
    val_main_v28_apply, val_main_c_12_apply, val_main_v30_apply, val_main_c_13_apply]
  rfl

/-- The mask of the second band at `(b, s, d)`: the bit "token `(b, s)` lies in `[20000, 40000)`", whatever `d`. -/
theorem mask1 (x0 : (⟨S8x2048, .i32⟩ : BufTy).Contents (Elt Ideal)) (b : Fin 8) (s : Fin 2048) (d : Fin 1024) :
    val_main_call3_v1 (F := Ideal) x0 (ix3 b s d) = Cert.Emb.inBand 20000#32 40000#32 (x0 (ix2 b s)) := by
  have e : idx_main_v36 (idx_main_call3_v1 (ix3 b s d)) = ix2 b s :=
    funext fun a => Fin.ext (by match a with | ⟨0, _⟩ => rfl | ⟨1, _⟩ => rfl)
  rw [val_main_call3_v1_apply, val_main_v36_apply, e]
  simp only [val_main_v24_apply, val_main_v21_apply, val_main_v23_apply, val_main_v20_apply, val_main_v22_apply,
    val_main_c_7_apply, val_main_c_8_apply]
  rfl

/-- The row of the second table that the gather reads at token `(b, s)` is the row `Cert.Emb.rowAt` names at the
    band's start index: the start indices are the band's start index placed on a trailing axis of size one. -/
theorem row1 (x0 : (⟨S8x2048, .i32⟩ : BufTy).Contents (Elt Ideal)) (b : Fin 8) (s : Fin 2048) :
    GatherRows3.rowOf (R := 20000) (by decide) (val_main_v33 (F := Ideal) x0) b s = Cert.Emb.rowAt 20000 (by decide) (Cert.Emb.startIx 20000#32 19999#32 20000#32 (x0 (ix2 b s))) := by
  have e : idx_main_v33 (ix3 b s (0 : Fin 1)) = ix2 b s :=
    funext fun a => Fin.ext (by match a with | ⟨0, _⟩ => rfl | ⟨1, _⟩ => rfl)
  apply Fin.ext
  show min (val_main_v33 (F := Ideal) x0 (ix3 b s (0 : Fin 1))).toInt.toNat (20000 - 1)
    = min (Cert.Emb.startIx 20000#32 19999#32 20000#32 (x0 (ix2 b s))).toInt.toNat (20000 - 1)
  rw [val_main_v33_apply, e, start1]

/-- The gathered rows of the second table at `(b, s, k)`: entry `k` of the row the start index names. -/
theorem gather1 (x0 : (⟨S8x2048, .i32⟩ : BufTy).Contents (Elt Ideal)) (x2 : (⟨S20000x256, .f32⟩ : BufTy).Contents (Elt Ideal))
    (b : Fin 8) (s : Fin 2048) (k : Fin 256) :
    val_main_v34 (F := Ideal) x0 x2 (ix3 b s k) = x2 (ix2 (Cert.Emb.rowAt 20000 (by decide) (Cert.Emb.startIx 20000#32 19999#32 20000#32 (x0 (ix2 b s)))) k) := by
  rw [← row1]
  exact GatherRows3.gather_rows_apply (R := 20000) (C := 256) (B := 8) (S := 2048) (by decide)
    gather_S20000x256_S8x2048x1_S8x2048x256_2_0_n_n_0_2_1256.wf x2 (val_main_v33 (F := Ideal) x0) b s k

/-- The contraction of the second band at `(b, s, d)`: the gathered row dotted with row `d` of the projection. -/
theorem dot1 (x0 : (⟨S8x2048, .i32⟩ : BufTy).Contents (Elt Ideal)) (x2 : (⟨S20000x256, .f32⟩ : BufTy).Contents (Elt Ideal))
    (x6 : (⟨S1024x256, .f32⟩ : BufTy).Contents (Elt Ideal)) (b : Fin 8) (s : Fin 2048) (d : Fin 1024) :
    val_main_v35 (F := Ideal) x0 x2 x6 (ix3 b s d)
      = ∑ k : Fin 256, x2 (ix2 (Cert.Emb.rowAt 20000 (by decide) (Cert.Emb.startIx 20000#32 19999#32 20000#32 (x0 (ix2 b s)))) k) * x6 (ix2 d k) := by
  rw [val_main_v35_apply]
  refine Finset.sum_congr rfl fun k _ => ?_
  have el : lidx_main_v35 (ix3 b s d) k = ix3 b s k :=
    funext fun a => Fin.ext (by match a with | ⟨0, _⟩ => rfl | ⟨1, _⟩ => rfl | ⟨2, _⟩ => rfl)
  have er : ridx_main_v35 (ix3 b s d) k = ix2 d k :=
    funext fun a => Fin.ext (by match a with | ⟨0, _⟩ => rfl | ⟨1, _⟩ => rfl)
  rw [el, er, gather1]

/-- THE SECOND BAND at `(b, s, d)`: the contraction where the token lies in the band, zero elsewhere. -/
theorem band1_eq (x0 : (⟨S8x2048, .i32⟩ : BufTy).Contents (Elt Ideal)) (x2 : (⟨S20000x256, .f32⟩ : BufTy).Contents (Elt Ideal))
    (x6 : (⟨S1024x256, .f32⟩ : BufTy).Contents (Elt Ideal)) (b : Fin 8) (s : Fin 2048) (d : Fin 1024) :
    val_main_v37 (F := Ideal) x0 x2 x6 (ix3 b s d) = Cert.Emb.band1 x2 x6 (x0 (ix2 b s)) d := by
  rw [val_main_v37_apply, mask1, dot1, val_main_call3_v2_apply, val_main_call3_v0_apply, val_main_cst_14_apply,
    Ideal.ofBits_def, Ideal.ofBits_zero_f32]
  rfl

/-! ## The third band: tokens in `[40000, 200000)`, a table of 160000 rows of width 64 -/

/-- The start index of the third band at token `(b, s)`: `ids - 40000` clipped into `[0, 159999]`, a negative one
    wrapped by `160000` — the same scalar operations, in the same order, as `Cert.Emb.startIx`. -/
theorem start2 (x0 : (⟨S8x2048, .i32⟩ : BufTy).Contents (Elt Ideal)) (b : Fin 8) (s : Fin 2048) :
    val_main_v51 (F := Ideal) x0 (ix2 b s) = Cert.Emb.startIx 40000#32 159999#32 160000#32 (x0 (ix2 b s)) := by
  simp only [val_main_v51_apply, val_main_v48_apply, val_main_v50_apply, val_main_v46_apply, val_main_call4_v4_apply,
    val_main_call4_v3_apply, val_main_c_19_apply, val_main_call4_v2_apply, val_main_call4_v1_apply,
    val_main_call4_v0_apply, val_main_c_18_apply, val_main_v45_apply, val_main_v44_apply, val_main_c_17_apply,
    val_main_v47_apply, val_main_c_20_apply, val_main_v49_apply, val_main_c_21_apply]
  rfl

/-- The mask of the third band at `(b, s, d)`: the bit "token `(b, s)` lies in `[40000, 200000)`", whatever `d`. -/
theorem mask2 (x0 : (⟨S8x2048, .i32⟩ : BufTy).Contents (Elt Ideal)) (b : Fin 8) (s : Fin 2048) (d : Fin 1024) :
    val_main_call5_v1 (F := Ideal) x0 (ix3 b s d) = Cert.Emb.inBand 40000#32 200000#32 (x0 (ix2 b s)) := by
  have e : idx_main_v55 (idx_main_call5_v1 (ix3 b s d)) = ix2 b s :=
    funext fun a => Fin.ext (by match a with | ⟨0, _⟩ => rfl | ⟨1, _⟩ => rfl)
  rw [val_main_call5_v1_apply, val_main_v55_apply, e]
  simp only [val_main_v43_apply, val_main_v40_apply, val_main_v42_apply, val_main_v39_apply, val_main_v41_apply,
    val_main_c_15_apply, val_main_c_16_apply]
  rfl

/-- The row of the third table that the gather reads at token `(b, s)` is the row `Cert.Emb.rowAt` names at the
    band's start index: the start indices are the band's start index placed on a trailing axis of size one. -/
theorem row2 (x0 : (⟨S8x2048, .i32⟩ : BufTy).Contents (Elt Ideal)) (b : Fin 8) (s : Fin 2048) :
    GatherRows3.rowOf (R := 160000) (by decide) (val_main_v52 (F := Ideal) x0) b s = Cert.Emb.rowAt 160000 (by decide) (Cert.Emb.startIx 40000#32 159999#32 160000#32 (x0 (ix2 b s))) := by
  have e : idx_main_v52 (ix3 b s (0 : Fin 1)) = ix2 b s :=
    funext fun a => Fin.ext (by match a with | ⟨0, _⟩ => rfl | ⟨1, _⟩ => rfl)
  apply Fin.ext
  show min (val_main_v52 (F := Ideal) x0 (ix3 b s (0 : Fin 1))).toInt.toNat (160000 - 1)
    = min (Cert.Emb.startIx 40000#32 159999#32 160000#32 (x0 (ix2 b s))).toInt.toNat (160000 - 1)
  rw [val_main_v52_apply, e, start2]

/-- The gathered rows of the third table at `(b, s, k)`: entry `k` of the row the start index names. -/
theorem gather2 (x0 : (⟨S8x2048, .i32⟩ : BufTy).Contents (Elt Ideal)) (x3 : (⟨S160000x64, .f32⟩ : BufTy).Contents (Elt Ideal))
    (b : Fin 8) (s : Fin 2048) (k : Fin 64) :
    val_main_v53 (F := Ideal) x0 x3 (ix3 b s k) = x3 (ix2 (Cert.Emb.rowAt 160000 (by decide) (Cert.Emb.startIx 40000#32 159999#32 160000#32 (x0 (ix2 b s)))) k) := by
  rw [← row2]
  exact GatherRows3.gather_rows_apply (R := 160000) (C := 64) (B := 8) (S := 2048) (by decide)
    gather_S160000x64_S8x2048x1_S8x2048x64_2_0_n_n_0_2_164.wf x3 (val_main_v52 (F := Ideal) x0) b s k

/-- The contraction of the third band at `(b, s, d)`: the gathered row dotted with row `d` of the projection. -/
theorem dot2 (x0 : (⟨S8x2048, .i32⟩ : BufTy).Contents (Elt Ideal)) (x3 : (⟨S160000x64, .f32⟩ : BufTy).Contents (Elt Ideal))
    (x7 : (⟨S1024x64, .f32⟩ : BufTy).Contents (Elt Ideal)) (b : Fin 8) (s : Fin 2048) (d : Fin 1024) :
    val_main_v54 (F := Ideal) x0 x3 x7 (ix3 b s d)
      = ∑ k : Fin 64, x3 (ix2 (Cert.Emb.rowAt 160000 (by decide) (Cert.Emb.startIx 40000#32 159999#32 160000#32 (x0 (ix2 b s)))) k) * x7 (ix2 d k) := by
  rw [val_main_v54_apply]
  refine Finset.sum_congr rfl fun k _ => ?_
  have el : lidx_main_v54 (ix3 b s d) k = ix3 b s k :=
    funext fun a => Fin.ext (by match a with | ⟨0, _⟩ => rfl | ⟨1, _⟩ => rfl | ⟨2, _⟩ => rfl)
  have er : ridx_main_v54 (ix3 b s d) k = ix2 d k :=
    funext fun a => Fin.ext (by match a with | ⟨0, _⟩ => rfl | ⟨1, _⟩ => rfl)
  rw [el, er, gather2]

/-- THE THIRD BAND at `(b, s, d)`: the contraction where the token lies in the band, zero elsewhere. -/
theorem band2_eq (x0 : (⟨S8x2048, .i32⟩ : BufTy).Contents (Elt Ideal)) (x3 : (⟨S160000x64, .f32⟩ : BufTy).Contents (Elt Ideal))
    (x7 : (⟨S1024x64, .f32⟩ : BufTy).Contents (Elt Ideal)) (b : Fin 8) (s : Fin 2048) (d : Fin 1024) :
    val_main_v56 (F := Ideal) x0 x3 x7 (ix3 b s d) = Cert.Emb.band2 x3 x7 (x0 (ix2 b s)) d := by
  rw [val_main_v56_apply, mask2, dot2, val_main_call5_v2_apply, val_main_call5_v0_apply, val_main_cst_22_apply,
    Ideal.ofBits_def, Ideal.ofBits_zero_f32]
  rfl

/-! ## The fourth band: tokens in `[200000, 267735)`, a table of 67735 rows of width 16 -/

/-- The start index of the fourth band at token `(b, s)`: `ids - 200000` clipped into `[0, 67734]`, a negative one
    wrapped by `67735` — the same scalar operations, in the same order, as `Cert.Emb.startIx`. -/
theorem start3 (x0 : (⟨S8x2048, .i32⟩ : BufTy).Contents (Elt Ideal)) (b : Fin 8) (s : Fin 2048) :
    val_main_v70 (F := Ideal) x0 (ix2 b s) = Cert.Emb.startIx 200000#32 67734#32 67735#32 (x0 (ix2 b s)) := by
  simp only [val_main_v70_apply, val_main_v67_apply, val_main_v69_apply, val_main_v65_apply, val_main_call6_v4_apply,
    val_main_call6_v3_apply, val_main_c_27_apply, val_main_call6_v2_apply, val_main_call6_v1_apply,
    val_main_call6_v0_apply, val_main_c_26_apply, val_main_v64_apply, val_main_v63_apply, val_main_c_25_apply,
    val_main_v66_apply, val_main_c_28_apply, val_main_v68_apply, val_main_c_29_apply]
  rfl

/-- The mask of the fourth band at `(b, s, d)`: the bit "token `(b, s)` lies in `[200000, 267735)`", whatever `d`. -/
theorem mask3 (x0 : (⟨S8x2048, .i32⟩ : BufTy).Contents (Elt Ideal)) (b : Fin 8) (s : Fin 2048) (d : Fin 1024) :
    val_main_call7_v1 (F := Ideal) x0 (ix3 b s d) = Cert.Emb.inBand 200000#32 267735#32 (x0 (ix2 b s)) := by
  have e : idx_main_v74 (idx_main_call7_v1 (ix3 b s d)) = ix2 b s :=
    funext fun a => Fin.ext (by match a with | ⟨0, _⟩ => rfl | ⟨1, _⟩ => rfl)
  rw [val_main_call7_v1_apply, val_main_v74_apply, e]
  simp only [val_main_v62_apply, val_main_v59_apply, val_main_v61_apply, val_main_v58_apply, val_main_v60_apply,
    val_main_c_23_apply, val_main_c_24_apply]
  rfl

/-- The row of the fourth table that the gather reads at token `(b, s)` is the row `Cert.Emb.rowAt` names at the
    band's start index: the start indices are the band's start index placed on a trailing axis of size one. -/
theorem row3 (x0 : (⟨S8x2048, .i32⟩ : BufTy).Contents (Elt Ideal)) (b : Fin 8) (s : Fin 2048) :
    GatherRows3.rowOf (R := 67735) (by decide) (val_main_v71 (F := Ideal) x0) b s = Cert.Emb.rowAt 67735 (by decide) (Cert.Emb.startIx 200000#32 67734#32 67735#32 (x0 (ix2 b s))) := by
  have e : idx_main_v71 (ix3 b s (0 : Fin 1)) = ix2 b s :=
    funext fun a => Fin.ext (by match a with | ⟨0, _⟩ => rfl | ⟨1, _⟩ => rfl)
  apply Fin.ext
  show min (val_main_v71 (F := Ideal) x0 (ix3 b s (0 : Fin 1))).toInt.toNat (67735 - 1)
    = min (Cert.Emb.startIx 200000#32 67734#32 67735#32 (x0 (ix2 b s))).toInt.toNat (67735 - 1)
  rw [val_main_v71_apply, e, start3]

/-- The gathered rows of the fourth table at `(b, s, k)`: entry `k` of the row the start index names. -/
theorem gather3 (x0 : (⟨S8x2048, .i32⟩ : BufTy).Contents (Elt Ideal)) (x4 : (⟨S67735x16, .f32⟩ : BufTy).Contents (Elt Ideal))
    (b : Fin 8) (s : Fin 2048) (k : Fin 16) :
    val_main_v72 (F := Ideal) x0 x4 (ix3 b s k) = x4 (ix2 (Cert.Emb.rowAt 67735 (by decide) (Cert.Emb.startIx 200000#32 67734#32 67735#32 (x0 (ix2 b s)))) k) := by
  rw [← row3]
  exact GatherRows3.gather_rows_apply (R := 67735) (C := 16) (B := 8) (S := 2048) (by decide)
    gather_S67735x16_S8x2048x1_S8x2048x16_2_0_n_n_0_2_116.wf x4 (val_main_v71 (F := Ideal) x0) b s k

/-- The contraction of the fourth band at `(b, s, d)`: the gathered row dotted with row `d` of the projection. -/
theorem dot3 (x0 : (⟨S8x2048, .i32⟩ : BufTy).Contents (Elt Ideal)) (x4 : (⟨S67735x16, .f32⟩ : BufTy).Contents (Elt Ideal))
    (x8 : (⟨S1024x16, .f32⟩ : BufTy).Contents (Elt Ideal)) (b : Fin 8) (s : Fin 2048) (d : Fin 1024) :
    val_main_v73 (F := Ideal) x0 x4 x8 (ix3 b s d)
      = ∑ k : Fin 16, x4 (ix2 (Cert.Emb.rowAt 67735 (by decide) (Cert.Emb.startIx 200000#32 67734#32 67735#32 (x0 (ix2 b s)))) k) * x8 (ix2 d k) := by
  rw [val_main_v73_apply]
  refine Finset.sum_congr rfl fun k _ => ?_
  have el : lidx_main_v73 (ix3 b s d) k = ix3 b s k :=
    funext fun a => Fin.ext (by match a with | ⟨0, _⟩ => rfl | ⟨1, _⟩ => rfl | ⟨2, _⟩ => rfl)
  have er : ridx_main_v73 (ix3 b s d) k = ix2 d k :=
    funext fun a => Fin.ext (by match a with | ⟨0, _⟩ => rfl | ⟨1, _⟩ => rfl)
  rw [el, er, gather3]

/-- THE FOURTH BAND at `(b, s, d)`: the contraction where the token lies in the band, zero elsewhere. -/
theorem band3_eq (x0 : (⟨S8x2048, .i32⟩ : BufTy).Contents (Elt Ideal)) (x4 : (⟨S67735x16, .f32⟩ : BufTy).Contents (Elt Ideal))
    (x8 : (⟨S1024x16, .f32⟩ : BufTy).Contents (Elt Ideal)) (b : Fin 8) (s : Fin 2048) (d : Fin 1024) :
    val_main_v75 (F := Ideal) x0 x4 x8 (ix3 b s d) = Cert.Emb.band3 x4 x8 (x0 (ix2 b s)) d := by
  rw [val_main_v75_apply, mask3, dot3, val_main_call7_v2_apply, val_main_call7_v0_apply, val_main_cst_30_apply,
    Ideal.ofBits_def, Ideal.ofBits_zero_f32]
  rfl

end Cert.ReferenceIdeal.RefValue

end
-- ==== Proof.RefValue.lean ====
/-
  The reference's result is the embedding of Spec.lean, index by index.

  The reference adds, to an array of zeros, one band after another: the band's rows gathered at the clipped and wrapped
  token indices, dotted with the band's projection (one contraction per output feature), kept where the token lies in
  the band and replaced by zero elsewhere; and scales the sum by 32. At `(b, s, d)` that is the four bands'
  contributions of token `ids (b, s)` at feature `d`, added from the left starting at zero, times the scale.
-/
import proofs.«143205_j19877108646485_2_alg».proof.Proof.RefRead
import proofs.«143205_j19877108646485_2_alg».proof.Proof.Spec
import proofs.«143205_j19877108646485_2_alg».proof.Proof.RefBands
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The reference's last stage, as a function of the nine argument arrays, is `Cert.Emb.G` of them. -/
theorem result_eq (x0 : (⟨S8x2048, .i32⟩ : BufTy).Contents (Elt Ideal)) (x1 : (⟨S20000x1024, .f32⟩ : BufTy).Contents (Elt Ideal))
    (x2 : (⟨S20000x256, .f32⟩ : BufTy).Contents (Elt Ideal)) (x3 : (⟨S160000x64, .f32⟩ : BufTy).Contents (Elt Ideal))
    (x4 : (⟨S67735x16, .f32⟩ : BufTy).Contents (Elt Ideal)) (x5 : (⟨S1024x1024, .f32⟩ : BufTy).Contents (Elt Ideal))
    (x6 : (⟨S1024x256, .f32⟩ : BufTy).Contents (Elt Ideal)) (x7 : (⟨S1024x64, .f32⟩ : BufTy).Contents (Elt Ideal))
    (x8 : (⟨S1024x16, .f32⟩ : BufTy).Contents (Elt Ideal)) :
    val_main_v78 (F := Ideal) x0 x1 x2 x3 x4 x5 x6 x7 x8 = Cert.Emb.G x0 x1 x2 x3 x4 x5 x6 x7 x8 := by
  funext i
  obtain ⟨b, s, d, rfl⟩ : ∃ (b : Fin 8) (s : Fin 2048) (d : Fin 1024), i = ix3 b s d := ⟨i 0, i 1, i 2, eq_ix3 i⟩
  -- the product by the scale, then the four sums from the left, the innermost one onto the array of zeros
  rw [val_main_v78_apply, val_main_v76_apply, val_main_v57_apply, val_main_v38_apply, val_main_v19_apply,
    val_main_v0_apply, val_main_cst_apply, band0_eq, band1_eq, band2_eq, band3_eq,
    val_main_v77_apply, val_main_cst_31_apply]
  simp only [Ideal.ofBits_def, Ideal.ofBits_zero_f32, Ideal.addf_def, Ideal.mulf_def, zero_add]
  rfl

end Cert.ReferenceIdeal.RefValue

end
-- ==== Proof.lean ====
/-
  The certificate: the kernel `forward` (four row gathers masked by band, two products against the projections inside one
  pipelined region, a scale by 32) against the jnp `reference` (per band: gather, project, keep where the token is in the
  band; add; scale by 32), as functions on the extended reals.

  Both compute, at `(b, s, d)`, the sum over the four bands of [token in band] · ⟨row the token names, projection row d⟩,
  times 32 (Proof/Spec.lean). The kernel masks the rows BEFORE the products and lays bands 1–3 side by side with zero
  padding so that one product serves them; masking commutes with the product because `0 · x = 0` on the extended reals,
  and the joined sum splits band by band (Proof/SumLaws.lean). The reference masks AFTER each product and adds the bands
  to an array of zeros. No step needs the inputs finite.

  The three frames: each program terminates without a fault and writes none of its argument arrays (the two kernels'
  through the region's launch, Proof/FrameKernel.lean and Proof/FrameKernelIdeal.lean; the reference's from its run).
  The idealization rewrote nothing, so `preserves` is `True`.
-/
import proofs.«143205_j19877108646485_2_alg».proof.Defs
import proofs.«143205_j19877108646485_2_alg».proof.Proof.Gen.Kernel
import proofs.«143205_j19877108646485_2_alg».proof.Proof.Gen.KernelIdeal
import proofs.«143205_j19877108646485_2_alg».proof.Proof.Gen.ReferenceIdeal
import proofs.«143205_j19877108646485_2_alg».proof.Proof.Gen.Pre_finite_inputs
import proofs.«143205_j19877108646485_2_alg».proof.Proof.FrameKernel
import proofs.«143205_j19877108646485_2_alg».proof.Proof.KernelRun
import proofs.«143205_j19877108646485_2_alg».proof.Proof.RefValue
import Idealize.ShloMosaic.Adequacy
import Idealize.ShloMosaic.Init

noncomputable section

namespace Cert.Proof

open Idealize.ShloMosaic Idealize.SL.Sem

/-- The word-level kernel runs to the end and leaves its arguments alone. -/
theorem frame_p : Cert.frame_Kernel := fun m ρ _ => Cert.Kernel.Frm.frame m ρ

/-- So does the idealized kernel. -/
theorem frame_pi : Cert.frame_KernelIdeal := fun m ρ _ => Cert.KernelIdeal.Frm.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with their result at the specification's function
    of those arguments. -/
theorem algebraic : Cert.algebraic_KernelIdeal_ReferenceIdeal := by
  intro m ρ m' ρ' _ hagree
  refine ⟨fun c => Cert.Emb.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Res.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v78_eq, Cert.ReferenceIdeal.RefValue.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
